-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S2048x64 : Shape := ⟨2, ![2048, 64]⟩
abbrev S8192x64 : Shape := ⟨2, ![8192, 64]⟩
abbrev S8192x10 : Shape := ⟨2, ![8192, 10]⟩
abbrev S2048 : Shape := ⟨1, ![2048]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S8192x64 : S_.BroadcastsInDim S8192x64 (![] : Fin 0 → Fin S8192x64.rank)
  reducesTo_S8192x64_S_d0_1 : S8192x64.ReducesTo [0, 1] S_
  bcast_S_S8192x10 : S_.BroadcastsInDim S8192x10 (![] : Fin 0 → Fin S8192x10.rank)
  reducesTo_S8192x10_S_d0_1 : S8192x10.ReducesTo [0, 1] S_

variable [Facts]

def fn_part1 {F : FTy → Type} [FloatOps F] (main_v13 : IVec S_ 1) (main_v16 : IVec S8192x10 1) : IVec S_ 1 :=
  let main_c_5 : IVec S_ 1 := constantI S_ 1 1#1
  let main_v17 : IVec S_ 1 := (fun x v => Host.reduce IntOp.andi x v reducesTo_S8192x10_S_d0_1 h_S_) main_v16 main_c_5
  let main_v18 : IVec S_ 1 := andi main_v13 main_v17
  main_v18

def fn {F : FTy → Type} [FloatOps F] (main_arg0 : FVec F S4096x64 .f32) (main_arg1 : FVec F S2048x64 .f32) (main_arg2 : FVec F S8192x64 .f32) (main_arg3 : FVec F S8192x10 .f32) (main_arg4 : IVec S2048 32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x10 .f32 := Host.absf main_arg3
  let main_cst_4 : FVec F S_ .f32 := constant S_ .f32 0x7F800000#32
  let main_v15 : FVec F S8192x10 .f32 := broadcastInDim S8192x10 ![] bcast_S_S8192x10 main_cst_4
  let main_v16 : IVec S8192x10 1 := cmpf .olt main_v14 main_v15
  fn_part1 (F := F) main_v13 main_v16
-- ==== Kernel.lean ====
abbrev S4096x64 : Shape := ⟨2, ![4096, 64]⟩
abbrev S2048x64 : Shape := ⟨2, ![2048, 64]⟩
abbrev S8192x64 : Shape := ⟨2, ![8192, 64]⟩
abbrev S8192x10 : Shape := ⟨2, ![8192, 10]⟩
abbrev S2048 : Shape := ⟨1, ![2048]⟩
abbrev S10240x64 : Shape := ⟨2, ![10240, 64]⟩
abbrev S2048x1 : Shape := ⟨2, ![2048, 1]⟩
abbrev S1x10 : Shape := ⟨2, ![1, 10]⟩
abbrev S2048x10 : Shape := ⟨2, ![2048, 10]⟩
abbrev S_ : Shape := ⟨0, ![]⟩
abbrev S8192 : Shape := ⟨1, ![8192]⟩
abbrev S8192x1 : Shape := ⟨2, ![8192, 1]⟩
abbrev S10240x10 : Shape := ⟨2, ![10240, 10]⟩
abbrev S10240x1 : Shape := ⟨2, ![10240, 1]⟩
abbrev S10240x11 : Shape := ⟨2, ![10240, 11]⟩
abbrev S4096x10 : Shape := ⟨2, ![4096, 10]⟩
abbrev S1024x64 : Shape := ⟨2, ![1024, 64]⟩
abbrev S2560x64 : Shape := ⟨2, ![2560, 64]⟩
abbrev S2560x11 : Shape := ⟨2, ![2560, 11]⟩
abbrev S1024x10 : Shape := ⟨2, ![1024, 10]⟩
abbrev S1024x11 : Shape := ⟨2, ![1024, 11]⟩
abbrev S1024 : Shape := ⟨1, ![1024]⟩
abbrev S1024x1 : Shape := ⟨2, ![1024, 1]⟩
abbrev S2560 : Shape := ⟨1, ![2560]⟩
abbrev S1x2560 : Shape := ⟨2, ![1, 2560]⟩
abbrev S1024x2560 : Shape := ⟨2, ![1024, 2560]⟩

abbrev nBuf : Space → Nat
  | .hbm => 31
  | .vmem => 9
  | .smem => 0
  | _ => 0

abbrev bufTy : (tb : Table) → Fin (tcTables nBuf tb) → BufTy
  | .hbm, ⟨0, _⟩ => ⟨S4096x64, .f32⟩
  | .hbm, ⟨1, _⟩ => ⟨S2048x64, .f32⟩
  | .hbm, ⟨2, _⟩ => ⟨S8192x64, .f32⟩
  | .hbm, ⟨3, _⟩ => ⟨S8192x10, .f32⟩
  | .hbm, ⟨4, _⟩ => ⟨S2048, .i32⟩
  | .hbm, ⟨5, _⟩ => ⟨S10240x64, .f32⟩
  | .hbm, ⟨6, _⟩ => ⟨S2048x1, .i32⟩
  | .hbm, ⟨7, _⟩ => ⟨S1x10, .i32⟩
  | .hbm, ⟨8, _⟩ => ⟨S2048x10, .i32⟩
  | .hbm, ⟨9, _⟩ => ⟨S2048x10, .i32⟩
  | .hbm, ⟨10, _⟩ => ⟨S2048x10, .i1⟩
  | .hbm, ⟨11, _⟩ => ⟨S2048x10, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x10, .f32⟩
  | .hbm, ⟨19, _⟩ => ⟨S8192x10, .f32⟩
  | .hbm, ⟨20, _⟩ => ⟨S8192x10, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x10, .f32⟩
  | .hbm, ⟨25, _⟩ => ⟨S8192x10, .f32⟩
  | .hbm, ⟨26, _⟩ => ⟨S10240x10, .f32⟩
  | .hbm, ⟨27, _⟩ => ⟨S_, .f32⟩
  | .hbm, ⟨28, _⟩ => ⟨S10240x1, .f32⟩
  | .hbm, ⟨29, _⟩ => ⟨S10240x11, .f32⟩
  | .hbm, ⟨30, _⟩ => ⟨S4096x10, .f32⟩
  | .local _ .vmem, ⟨0, _⟩ => ⟨S1024x64, .f32⟩
  | .local _ .vmem, ⟨1, _⟩ => ⟨S1024x64, .f32⟩
  | .local _ .vmem, ⟨2, _⟩ => ⟨S2560x64, .f32⟩
  | .local _ .vmem, ⟨3, _⟩ => ⟨S2560x64, .f32⟩
  | .local _ .vmem, ⟨4, _⟩ => ⟨S2560x11, .f32⟩
  | .local _ .vmem, ⟨5, _⟩ => ⟨S2560x11, .f32⟩
  | .local _ .vmem, ⟨6, _⟩ => ⟨S1024x10, .f32⟩
  | .local _ .vmem, ⟨7, _⟩ => ⟨S1024x10, .f32⟩
  | .local _ .vmem, ⟨8, _⟩ => ⟨S1024x11, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2560x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  concatenates_S2048x64_S8192x64_S10240x64_d0 : Shape.Concatenates [S2048x64, S8192x64] S10240x64 0
  bcast_S2048_S2048x1_0 : S2048.BroadcastsInDim S2048x1 (![0] : Fin 1 → Fin S2048x1.rank)
  bcast_S2048x1_S2048x10_0_1 : S2048x1.BroadcastsInDim S2048x10 (![0, 1] : Fin 2 → Fin S2048x10.rank)
  bcast_S1x10_S2048x10_0_1 : S1x10.BroadcastsInDim S2048x10 (![0, 1] : Fin 2 → Fin S2048x10.rank)
  reducesTo_S8192x10_S8192_d1 : S8192x10.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  concatenates_S2048x10_S8192x10_S10240x10_d0 : Shape.Concatenates [S2048x10, S8192x10] S10240x10 0
  bcast_S_S10240x1 : S_.BroadcastsInDim S10240x1 (![] : Fin 0 → Fin S10240x1.rank)
  concatenates_S10240x10_S10240x1_S10240x11_d1 : Shape.Concatenates [S10240x10, S10240x1] S10240x11 1
  inb_S1024x11_S1024x11_0_0 : ∀ a, (![0, 0] : Fin 2 → Nat) a + S1024x11.size a ≤ S1024x11.size a
  h_S1024x11 : 0 < S1024x11.numel
  shapeCasts_S1024x11_S1024x11 : S1024x11.ShapeCasts S1024x11
  inb_S1024x64_S1024x64_0_0 : ∀ a, (![0, 0] : Fin 2 → Nat) a + S1024x64.size a ≤ S1024x64.size a
  h_S1024x64 : 0 < S1024x64.numel
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  reduces_S1024x64_S1024 : S1024x64.Reduces [1] S1024
  shapeCasts_S1024_S1024x1 : S1024.ShapeCasts S1024x1
  reduces_S2560x64_S2560 : S2560x64.Reduces [1] S2560
  shapeCasts_S2560_S1x2560 : S2560.ShapeCasts S1x2560
  broadcasts_S1024x1_S1024x2560 : S1024x1.Broadcasts S1024x2560
  broadcasts_S1x2560_S1024x2560 : S1x2560.Broadcasts S1024x2560
  bitsLt_bf16_f32 : FTy.bits .bf16 < FTy.bits .f32
  inb_S2560x11_S2560x11_0_0 : ∀ a, (![0, 0] : Fin 2 → Nat) a + S2560x11.size a ≤ S2560x11.size a
  h_S2560x11 : 0 < S2560x11.numel
  shapeCasts_S2560x11_S2560x11 : S2560x11.ShapeCasts S2560x11
  slices_S1024x11_o0_0_S1024x10 : S1024x11.Slices ![0, 0] S1024x10
  slices_S1024x11_o0_10_S1024x1 : S1024x11.Slices ![0, 10] S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  dot_S1024x64_S2560x64_S1024x2560_1_1_0_0_n_n_wf : DotDims.WF S1024x64 S2560x64 S1024x2560 [1] [1] [0] [0] [] []
  dot_S1024x2560_S2560x11_S1024x11_1_0_0_1_n_n_wf : DotDims.WF S1024x2560 S2560x11 S1024x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S4096x64.size a
  hwx0_0 : ∀ i : grid0.Coords, EltTy.bits .f32 = 32 ∨ (Rect.block (s := S4096x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x64.size a ≤ S10240x64.size a
  hwx0_1 : ∀ i : grid0.Coords, EltTy.bits .f32 = 32 ∨ (Rect.block (s := S10240x64) S2560x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x11.size a ≤ S10240x11.size a
  hwx0_2 : ∀ i : grid0.Coords, EltTy.bits .f32 = 32 ∨ (Rect.block (s := S10240x11) S2560x11.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x10.size a ≤ S4096x10.size a
  hwx0_3 : ∀ i : grid0.Coords, EltTy.bits .f32 = 32 ∨ (Rect.block (s := S4096x10) S1024x10.size (cc0_transform_3 i) (hinb0_3 i)).WholeWords (EltTy.packing .f32)

variable [Facts₀]

def dot_S1024x64_S2560x64_S1024x2560_1_1_0_0_n_n : DotDims S1024x64 S2560x64 S1024x2560 where
  lhsContracting := [1]
  rhsContracting := [1]
  lhsNonContracting := [0]
  rhsNonContracting := [0]
  lhsBatch := []
  rhsBatch := []
  wf := dot_S1024x64_S2560x64_S1024x2560_1_1_0_0_n_n_wf
def dot_S1024x2560_S2560x11_S1024x11_1_0_0_1_n_n : DotDims S1024x2560 S2560x11 S1024x11 where
  lhsContracting := [1]
  rhsContracting := [0]
  lhsNonContracting := [0]
  rhsNonContracting := [1]
  lhsBatch := []
  rhsBatch := []
  wf := dot_S1024x2560_S2560x11_S1024x11_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2560x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2560x11.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x64 : Shape := ⟨2, ![4096, 64]⟩
abbrev S2048x64 : Shape := ⟨2, ![2048, 64]⟩
abbrev S8192x64 : Shape := ⟨2, ![8192, 64]⟩
abbrev S8192x10 : Shape := ⟨2, ![8192, 10]⟩
abbrev S2048 : Shape := ⟨1, ![2048]⟩
abbrev S10240x64 : Shape := ⟨2, ![10240, 64]⟩
abbrev S_ : Shape := ⟨0, ![]⟩
abbrev S4096 : Shape := ⟨1, ![4096]⟩
abbrev S4096x1 : Shape := ⟨2, ![4096, 1]⟩
abbrev S10240 : Shape := ⟨1, ![10240]⟩
abbrev S1x10240 : Shape := ⟨2, ![1, 10240]⟩
abbrev S64x10240 : Shape := ⟨2, ![64, 10240]⟩
abbrev S4096x10240 : Shape := ⟨2, ![4096, 10240]⟩
abbrev S2048x1 : Shape := ⟨2, ![2048, 1]⟩
abbrev S1x10 : Shape := ⟨2, ![1, 10]⟩
abbrev S2048x10 : Shape := ⟨2, ![2048, 10]⟩
abbrev S8192 : Shape := ⟨1, ![8192]⟩
abbrev S8192x1 : Shape := ⟨2, ![8192, 1]⟩
abbrev S10240x10 : Shape := ⟨2, ![10240, 10]⟩
abbrev S4096x10 : Shape := ⟨2, ![4096, 10]⟩

abbrev nBuf : Space → Nat
  | .hbm => 63
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S2048x64, .f32⟩
  | .hbm, ⟨2, _⟩ => ⟨S8192x64, .f32⟩
  | .hbm, ⟨3, _⟩ => ⟨S8192x10, .f32⟩
  | .hbm, ⟨4, _⟩ => ⟨S2048, .i32⟩
  | .hbm, ⟨5, _⟩ => ⟨S10240x64, .f32⟩
  | .hbm, ⟨6, _⟩ => ⟨S_, .f32⟩
  | .hbm, ⟨7, _⟩ => ⟨S4096x64, .f32⟩
  | .hbm, ⟨8, _⟩ => ⟨S4096x64, .f32⟩
  | .hbm, ⟨9, _⟩ => ⟨S_, .f32⟩
  | .hbm, ⟨10, _⟩ => ⟨S10240x64, .f32⟩
  | .hbm, ⟨11, _⟩ => ⟨S10240x64, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S10240x64, .f32⟩
  | .hbm, ⟨17, _⟩ => ⟨S_, .f32⟩
  | .hbm, ⟨18, _⟩ => ⟨S10240, .f32⟩
  | .hbm, ⟨19, _⟩ => ⟨S1x10240, .f32⟩
  | .hbm, ⟨20, _⟩ => ⟨S64x10240, .f32⟩
  | .hbm, ⟨21, _⟩ => ⟨S4096x10240, .f32⟩
  | .hbm, ⟨22, _⟩ => ⟨S4096x10240, .f32⟩
  | .hbm, ⟨23, _⟩ => ⟨S4096x10240, .f32⟩
  | .hbm, ⟨24, _⟩ => ⟨S4096x10240, .f32⟩
  | .hbm, ⟨25, _⟩ => ⟨S_, .f32⟩
  | .hbm, ⟨26, _⟩ => ⟨S4096x10240, .f32⟩
  | .hbm, ⟨27, _⟩ => ⟨S4096x10240, .f32⟩
  | .hbm, ⟨28, _⟩ => ⟨S4096x10240, .f32⟩
  | .hbm, ⟨29, _⟩ => ⟨S_, .f32⟩
  | .hbm, ⟨30, _⟩ => ⟨S4096x10240, .f32⟩
  | .hbm, ⟨31, _⟩ => ⟨S4096x10240, .f32⟩
  | .hbm, ⟨32, _⟩ => ⟨S4096x10240, .f32⟩
  | .hbm, ⟨33, _⟩ => ⟨S_, .f32⟩
  | .hbm, ⟨34, _⟩ => ⟨S4096x10240, .f32⟩
  | .hbm, ⟨35, _⟩ => ⟨S4096x10240, .f32⟩
  | .hbm, ⟨36, _⟩ => ⟨S2048x1, .i32⟩
  | .hbm, ⟨37, _⟩ => ⟨S1x10, .i32⟩
  | .hbm, ⟨38, _⟩ => ⟨S2048x10, .i32⟩
  | .hbm, ⟨39, _⟩ => ⟨S2048x10, .i32⟩
  | .hbm, ⟨40, _⟩ => ⟨S2048x10, .i1⟩
  | .hbm, ⟨41, _⟩ => ⟨S2048x10, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x10, .f32⟩
  | .hbm, ⟨49, _⟩ => ⟨S8192x10, .f32⟩
  | .hbm, ⟨50, _⟩ => ⟨S8192x10, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x10, .f32⟩
  | .hbm, ⟨55, _⟩ => ⟨S8192x10, .f32⟩
  | .hbm, ⟨56, _⟩ => ⟨S10240x10, .f32⟩
  | .hbm, ⟨57, _⟩ => ⟨S4096x10, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x10, .f32⟩
  | .hbm, ⟨62, _⟩ => ⟨S4096x10, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  concatenates_S2048x64_S8192x64_S10240x64_d0 : Shape.Concatenates [S2048x64, S8192x64] S10240x64 0
  bcast_S_S4096x64 : S_.BroadcastsInDim S4096x64 (![] : Fin 0 → Fin S4096x64.rank)
  bcast_S_S10240x64 : S_.BroadcastsInDim S10240x64 (![] : Fin 0 → Fin S10240x64.rank)
  reducesTo_S4096x64_S4096_d1 : S4096x64.ReducesTo [1] S4096
  h_S_ : 0 < S_.numel
  bcast_S4096_S4096x1_0 : S4096.BroadcastsInDim S4096x1 (![0] : Fin 1 → Fin S4096x1.rank)
  reducesTo_S10240x64_S10240_d1 : S10240x64.ReducesTo [1] S10240
  bcast_S10240_S1x10240_1 : S10240.BroadcastsInDim S1x10240 (![1] : Fin 1 → Fin S1x10240.rank)
  transposes_S10240x64_S64x10240_1_0 : S10240x64.Transposes [1, 0] S64x10240
  bcast_S4096x1_S4096x10240_0_1 : S4096x1.BroadcastsInDim S4096x10240 (![0, 1] : Fin 2 → Fin S4096x10240.rank)
  bcast_S1x10240_S4096x10240_0_1 : S1x10240.BroadcastsInDim S4096x10240 (![0, 1] : Fin 2 → Fin S4096x10240.rank)
  bcast_S_S4096x10240 : S_.BroadcastsInDim S4096x10240 (![] : Fin 0 → Fin S4096x10240.rank)
  bcast_S2048_S2048x1_0 : S2048.BroadcastsInDim S2048x1 (![0] : Fin 1 → Fin S2048x1.rank)
  bcast_S2048x1_S2048x10_0_1 : S2048x1.BroadcastsInDim S2048x10 (![0, 1] : Fin 2 → Fin S2048x10.rank)
  bcast_S1x10_S2048x10_0_1 : S1x10.BroadcastsInDim S2048x10 (![0, 1] : Fin 2 → Fin S2048x10.rank)
  reducesTo_S8192x10_S8192_d1 : S8192x10.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  concatenates_S2048x10_S8192x10_S10240x10_d0 : Shape.Concatenates [S2048x10, S8192x10] S10240x10 0
  reducesTo_S4096x10240_S4096_d1 : S4096x10240.ReducesTo [1] S4096
  bcast_S4096x1_S4096x10_0_1 : S4096x1.BroadcastsInDim S4096x10 (![0, 1] : Fin 2 → Fin S4096x10.rank)
  dot_S4096x64_S64x10240_S4096x10240_1_0_0_1_n_n_wf : DotDims.WF S4096x64 S64x10240 S4096x10240 [1] [0] [0] [1] [] []
  dot_S4096x10240_S10240x10_S4096x10_1_0_0_1_n_n_wf : DotDims.WF S4096x10240 S10240x10 S4096x10 [1] [0] [0] [1] [] []

variable [Facts₀]

def dot_S4096x64_S64x10240_S4096x10240_1_0_0_1_n_n : DotDims S4096x64 S64x10240 S4096x10240 where
  lhsContracting := [1]
  rhsContracting := [0]
  lhsNonContracting := [0]
  rhsNonContracting := [1]
  lhsBatch := []
  rhsBatch := []
  wf := dot_S4096x64_S64x10240_S4096x10240_1_0_0_1_n_n_wf
def dot_S4096x10240_S10240x10_S4096x10_1_0_0_1_n_n : DotDims S4096x10240 S10240x10 S4096x10 where
  lhsContracting := [1]
  rhsContracting := [0]
  lhsNonContracting := [0]
  rhsNonContracting := [1]
  lhsBatch := []
  rhsBatch := []
  wf := dot_S4096x10240_S10240x10_S4096x10_1_0_0_1_n_n_wf

class Facts : Prop extends Facts₀ where

variable [Facts]
-- ==== Proof.LibScaledAverage.lean ====
/-
  Weighted averages over the extended reals whose weights are all divided by one positive constant.

  For finitely many positive real weights `e k`, ARBITRARY extended-real values `p k` and a positive real `c`:
      (Σ_k (e k / c) · p k) / (Σ_k e k / c) = (Σ_k e k · p k) / (Σ_k e k),
  the divisions being the extended reals' (`Ideal.div`: the product with the reciprocal for a nonzero real divisor).
  The values may be infinite: a nonnegative real factor distributes over any finite sum of extended reals
  (`coe_mul_sum`), and the denominator is a positive real.  Also: the inclusion of the reals commutes with finite sums
  (`coe_sum`).  Generic in the index type; imports Mathlib and the extended-real instance only.
-/
import Mathlib
import Idealize.ShloMosaic.PureOps.Ideal

noncomputable section

namespace LibScaledAverage

open Idealize.ShloMosaic

/-- The inclusion of the reals commutes with finite sums. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor distributes over any finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A positive constant dividing every weight leaves the weighted average as it was, whatever extended reals are
    averaged. -/
theorem average_scaled {ι : Type*} [Fintype ι] [Nonempty ι] (e : ι → ℝ) (he : ∀ k, 0 < e k) (p : ι → EReal)
    {c : ℝ} (hc : 0 < c) :
    Ideal.div (∑ k, Ideal.div (e k : EReal) (c : EReal) * p k) (∑ k, Ideal.div (e k : EReal) (c : EReal))
      = Ideal.div (∑ k, (e k : EReal) * p k) ((∑ k, e k : ℝ) : EReal) := by
  have hS : 0 < ∑ k, e k := Finset.sum_pos (fun k _ => he k) Finset.univ_nonempty
  have hc' : (0 : ℝ) ≤ 1 / c := by positivity
  have hden : ∑ k, Ideal.div (e k : EReal) (c : EReal) = (((∑ k, e k) * (1 / c) : ℝ) : EReal) := by
    simp only [Ideal.div_coe hc.ne', ← EReal.coe_mul, coe_sum]
    rw [Finset.sum_mul]
  have hnum : ∑ k, Ideal.div (e k : EReal) (c : EReal) * p k = ((1 / c : ℝ) : EReal) * ∑ k, (e k : EReal) * p k := by
    rw [coe_mul_sum _ hc']
    refine Finset.sum_congr rfl fun k _ => ?_
    rw [Ideal.div_coe hc.ne', mul_comm (e k : EReal) _, mul_assoc]
  have hne : (∑ k, e k) * (1 / c) ≠ 0 := by positivity
  rw [hden, hnum, Ideal.div_coe hne, Ideal.div_coe hS.ne', mul_comm ((1 / c : ℝ) : EReal) _, mul_assoc,
    ← EReal.coe_mul]
  congr 2
  field_simp

end LibScaledAverage

end
-- ==== Proof.Spec.lean ====
/-
  A kernel smoother as one function of its arguments, over the extended reals.

  Queries `x` (4096 rows of 64 entries), keys `xa` (10240 rows of 64 entries) and a table `p` with ten columns over the
  keys.  Key `k` weighs `w(r,k) = exp(-½‖x_r − xa_k‖²)` for query `r`, and entry `(r, q)` of the result is the weighted
  average `(Σ_k w(r,k)·p(k,q)) / (Σ_k w(r,k))`.

  Two spellings of it.  The first (`G`) writes the exponent as `x_r·xa_k − ½‖x_r‖² − ½‖xa_k‖²`, every entry multiplied
  by the word 1.0 first, and takes the denominator as `Σ_k w(r,k)·1`.  The second (`R`) writes the exponent as
  `−½·((‖x_r‖² + ‖xa_k‖²) − 2·x_r·xa_k)`, every entry divided by the word 1.0 first and every sum started from the word
  0.0, and divides each weight by the word 0x40206C99 (a positive real near √(2π)) before both sums.

  On REAL entries of `x` and `xa` the two exponents are the same real number, so the two weights are the same positive
  real `w`; the positive constant `c` dividing every weight leaves the quotient as it was,
  `(Σ_k (w_k/c)·p_k) / (Σ_k w_k/c) = (Σ_k w_k·p_k) / (Σ_k w_k)`: a nonnegative real factor distributes over any sum of
  extended reals, and the denominator is a positive real.  The table `p` may hold any extended reals.
-/
import Mathlib
import Idealize.ShloMosaic.PureOps.Ideal
import Idealize.ShloMosaic.PureOps.Ideal.Laws
import Idealize.ShloMosaic.Lib.ValueIdx
import proofs.«106273_j3375844295427_2_alg».proof.Proof.LibScaledAverage

noncomputable section

namespace Cert.Smoother

open Idealize.ShloMosaic Idealize.ShloMosaic.ValueIdx LibScaledAverage

/-! ## The words the two programs spell -/

abbrev one : EReal := Ideal.ofBits .f32 0x3F800000#32
abbrev negHalf : EReal := Ideal.ofBits .f32 0xBF000000#32
abbrev two : EReal := Ideal.ofBits .f32 0x40000000#32
abbrev zero : EReal := Ideal.ofBits .f32 0x00000000#32
abbrev rootTwoPi : EReal := Ideal.ofBits .f32 0x40206C99#32

theorem one_eq : one = ((1 : ℝ) : EReal) := by
  simp [one, Ideal.ofBits, Ideal.ieee, -EReal.coe_mul]; norm_num
theorem zero_eq : zero = ((0 : ℝ) : EReal) := by
  simp [zero, Ideal.ofBits, Ideal.ieee]
theorem negHalf_eq : negHalf = ((-(1 / 2) : ℝ) : EReal) := by
  simp [negHalf, Ideal.ofBits, Ideal.ieee, -EReal.coe_mul]; norm_num
theorem two_eq : two = ((2 : ℝ) : EReal) := by
  simp [two, Ideal.ofBits, Ideal.ieee, -EReal.coe_mul]; norm_num
/-- The word 0x40206C99 is the positive real 10513561 · 2⁻²². -/
theorem rootTwoPi_pos : ∃ c : ℝ, rootTwoPi = (c : EReal) ∧ 0 < c :=
  ⟨(10513561 : ℝ) * (2 : ℝ) ^ (-22 : ℤ), by simp [rootTwoPi, Ideal.ofBits, Ideal.ieee, -EReal.coe_mul], by positivity⟩

/-! ## The weight, in its two spellings -/

/-- The first spelling of the weight of a key row `v` for a query row `u`. -/
def kw (u v : Fin 64 → EReal) : EReal :=
  Ideal.exp (((∑ d, (u d * one) * (v d * one)) + negHalf * ∑ d, (u d * one) * (u d * one))
    + negHalf * ∑ d, (v d * one) * (v d * one))

/-- The second spelling. -/
def rw (u v : Fin 64 → EReal) : EReal :=
  Ideal.exp (negHalf * (((zero + ∑ d, Ideal.div (u d) one * Ideal.div (u d) one)
      + (zero + ∑ d, Ideal.div (v d) one * Ideal.div (v d) one))
    - two * ∑ d, Ideal.div (u d) one * Ideal.div (v d) one))

/-- The weight of real rows, as a real. -/
def w (u v : Fin 64 → ℝ) : ℝ :=
  Real.exp (((∑ d, (u d * 1) * (v d * 1)) + (-(1 / 2)) * ∑ d, (u d * 1) * (u d * 1))
    + (-(1 / 2)) * ∑ d, (v d * 1) * (v d * 1))

theorem w_pos (u v : Fin 64 → ℝ) : 0 < w u v := Real.exp_pos _

/-- On real rows the first spelling is the real weight. -/
theorem kw_real (u v : Fin 64 → ℝ) : kw (fun d => (u d : EReal)) (fun d => (v d : EReal)) = (w u v : EReal) := by
  unfold kw w
  rw [one_eq, negHalf_eq]
  simp only [← EReal.coe_mul, coe_sum, ← EReal.coe_add, Ideal.exp_coe]

/-- On real rows the second spelling is the same real weight: the two exponents are one real number. -/
theorem rw_real (u v : Fin 64 → ℝ) : rw (fun d => (u d : EReal)) (fun d => (v d : EReal)) = (w u v : EReal) := by
  unfold rw w
  rw [one_eq, negHalf_eq, two_eq, zero_eq]
  simp only [Ideal.div_coe (one_ne_zero : (1 : ℝ) ≠ 0), ← EReal.coe_mul, coe_sum, ← EReal.coe_add, ← EReal.coe_sub,
    Ideal.exp_coe]
  congr 2
  simp only [one_div_one, mul_one, zero_add]
  ring

/-! ## A positive constant dividing every weight leaves the weighted average as it was -/

/-- The general law, with the sums started from the word 0.0 and the denominator's weights multiplied by the word 1.0
    as the two programs spell them. -/
theorem average_words {ι : Type*} [Fintype ι] [Nonempty ι] (e : ι → ℝ) (he : ∀ k, 0 < e k) (p : ι → EReal)
    {c : ℝ} (hc : 0 < c) :
    Ideal.div (∑ k, Ideal.div (e k : EReal) (c : EReal) * p k) (zero + ∑ k, Ideal.div (e k : EReal) (c : EReal))
      = Ideal.div (∑ k, (e k : EReal) * p k) (∑ k, (e k : EReal) * one) := by
  have hden' : ∑ k, (e k : EReal) * one = ((∑ k, e k : ℝ) : EReal) := by
    rw [one_eq]; simp only [← EReal.coe_mul, coe_sum, mul_one]
  rw [zero_eq, EReal.coe_zero, zero_add, hden']
  exact average_scaled e he p hc

/-! ## The two results -/

/-- The first spelling of the result. -/
def G (X : (⟨2, ![4096, 64]⟩ : Shape).Idx → EReal) (XA : (⟨2, ![10240, 64]⟩ : Shape).Idx → EReal)
    (P : (⟨2, ![10240, 10]⟩ : Shape).Idx → EReal) : (⟨2, ![4096, 10]⟩ : Shape).Idx → EReal := fun i =>
  Ideal.div (∑ k : Fin 10240, kw (fun d => X (ix2 (i 0) d)) (fun d => XA (ix2 k d)) * P (ix2 k (i 1)))
    (∑ k : Fin 10240, kw (fun d => X (ix2 (i 0) d)) (fun d => XA (ix2 k d)) * one)

/-- The second spelling of the result. -/
def R (X : (⟨2, ![4096, 64]⟩ : Shape).Idx → EReal) (XA : (⟨2, ![10240, 64]⟩ : Shape).Idx → EReal)
    (P : (⟨2, ![10240, 10]⟩ : Shape).Idx → EReal) : (⟨2, ![4096, 10]⟩ : Shape).Idx → EReal := fun i =>
  Ideal.div
    (∑ k : Fin 10240, Ideal.div (rw (fun d => X (ix2 (i 0) d)) (fun d => XA (ix2 k d))) rootTwoPi * P (ix2 k (i 1)))
    (zero + ∑ k : Fin 10240, Ideal.div (rw (fun d => X (ix2 (i 0) d)) (fun d => XA (ix2 k d))) rootTwoPi)

/-- With real queries and keys the two spellings are one function, whatever the table holds. -/
theorem R_eq_G (X : (⟨2, ![4096, 64]⟩ : Shape).Idx → EReal) (XA : (⟨2, ![10240, 64]⟩ : Shape).Idx → EReal)
    (P : (⟨2, ![10240, 10]⟩ : Shape).Idx → EReal)
    (hX : ∀ i, ∃ r : ℝ, X i = (r : EReal)) (hXA : ∀ i, ∃ r : ℝ, XA i = (r : EReal)) : R X XA P = G X XA P := by
  choose x hx using hX
  choose xa hxa using hXA
  obtain ⟨c, hc, hcpos⟩ := rootTwoPi_pos
  funext i
  have hk : ∀ k : Fin 10240, kw (fun d => X (ix2 (i 0) d)) (fun d => XA (ix2 k d))
      = (w (fun d => x (ix2 (i 0) d)) (fun d => xa (ix2 k d)) : EReal) := fun k => by
    simp only [hx, hxa]; exact kw_real _ _
  have hr : ∀ k : Fin 10240, rw (fun d => X (ix2 (i 0) d)) (fun d => XA (ix2 k d))
      = (w (fun d => x (ix2 (i 0) d)) (fun d => xa (ix2 k d)) : EReal) := fun k => by
    simp only [hx, hxa]; exact rw_real _ _
  unfold R G
  simp only [hk, hr, hc]
  exact average_words (fun k : Fin 10240 => w (fun d => x (ix2 (i 0) d)) (fun d => xa (ix2 k d)))
    (fun k => w_pos _ _) (fun k => P (ix2 k (i 1))) hcpos

end Cert.Smoother

end
-- ==== Proof.Pieces.lean ====
/-
  What the kernel body leaves behind at a grid point, as values.

  The body keeps a running [1024, 11] table in its scratch buffer.  At the first key block of a query block it stores
  zeros there; at every key block it adds that block's contribution (the product of the block's [1024, 2560] weight
  tile with the block's [2560, 11] table) to what the scratch holds and stores the sum back; at the last key block it
  also stores, into the output block, the quotient of the table's first ten columns by its eleventh.  So, writing
  `step x0 x1 x2 acc` for "acc plus the contribution of the blocks x0, x1, x2":
    the first key block leaves    step x0 x1 x2 0           in the scratch,
    a later key block leaves      step x0 x1 x2 acc         in the scratch holding acc,
    the last key block leaves     quotient (step x0 x1 x2 acc)  in the output block as well.
  Each is read off the covering store the body's run found; a load of a buffer the body stored whole just before reads
  the stored value.  Generic in the float instance.
-/
import proofs.«106273_j3375844295427_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later key block (neither the first nor the last of its query block) leaves, in the scratch that held `xs0`,
    the accumulated table. -/
theorem scratch_later (c : Dev nD) (i : grid0.Coords) (a2 : Memref sig .tc .vmem S1024x64 .f32) (h2 : a2.IsWhole) (a3 : Memref sig .tc .vmem S2560x64 .f32) (h3 : a3.IsWhole) (a4 : Memref sig .tc .vmem S2560x11 .f32) (h4 : a4.IsWhole) (a5 : Memref sig .tc .vmem S1024x10 .f32) (h5 : a5.IsWhole) (a6 : Memref sig .tc .vmem S1024x11 .f32) (h6 : a6.IsWhole) (hc0 : ¬cond0_0 i) (hc1 : ¬cond0_1 i)
    (x0 : Vec F S1024x64 .f32) (x1 : Vec F S2560x64 .f32) (x2 : Vec F S2560x11 .f32) (xs0 : Vec F S1024x11 .f32) :
    sout0_B_0 c i a2 h2 a3 h3 a4 h4 a5 h5 a6 h6 hc0 hc1 x0 x1 x2 xs0 = k0_pay3 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h4.read_unread, h6.read_unread,
    View.ld_unit_zero (S := S1024x64) hz, View.ld_unit_zero (S := S2560x64) hz, View.ld_unit_zero (S := S2560x11) hz,
    View.ld_unit_zero (S := S1024x11) hz]

/-- The last key block leaves the same in the scratch … -/
theorem scratch_last (c : Dev nD) (i : grid0.Coords) (a2 : Memref sig .tc .vmem S1024x64 .f32) (h2 : a2.IsWhole) (a3 : Memref sig .tc .vmem S2560x64 .f32) (h3 : a3.IsWhole) (a4 : Memref sig .tc .vmem S2560x11 .f32) (h4 : a4.IsWhole) (a5 : Memref sig .tc .vmem S1024x10 .f32) (h5 : a5.IsWhole) (a6 : Memref sig .tc .vmem S1024x11 .f32) (h6 : a6.IsWhole) (hc0 : ¬cond0_0 i) (hc1 : cond0_1 i)
    (x0 : Vec F S1024x64 .f32) (x1 : Vec F S2560x64 .f32) (x2 : Vec F S2560x11 .f32) (xs0 : Vec F S1024x11 .f32) :
    sout0_C_0 c i a2 h2 a3 h3 a4 h4 a5 h5 a6 h6 hc0 hc1 x0 x1 x2 xs0 = k0_pay3 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S1024x64) hz, View.ld_unit_zero (S := S2560x64) hz, View.ld_unit_zero (S := S2560x11) hz,
    View.ld_unit_zero (S := S1024x11) hz]

/-- … and stores the quotient of the accumulated table into the output block. -/
theorem out_last (c : Dev nD) (i : grid0.Coords) (a2 : Memref sig .tc .vmem S1024x64 .f32) (h2 : a2.IsWhole) (a3 : Memref sig .tc .vmem S2560x64 .f32) (h3 : a3.IsWhole) (a4 : Memref sig .tc .vmem S2560x11 .f32) (h4 : a4.IsWhole) (a5 : Memref sig .tc .vmem S1024x10 .f32) (h5 : a5.IsWhole) (a6 : Memref sig .tc .vmem S1024x11 .f32) (h6 : a6.IsWhole) (hc0 : ¬cond0_0 i) (hc1 : cond0_1 i)
    (x0 : Vec F S1024x64 .f32) (x1 : Vec F S2560x64 .f32) (x2 : Vec F S2560x11 .f32) (xs0 : Vec F S1024x11 .f32) :
    out0_C_3 c i a2 h2 a3 h3 a4 h4 a5 h5 a6 h6 hc0 hc1 x0 x1 x2 xs0 = k0_pay1 (k0_pay3 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1024x11) _ hz]
  simp only [View.readAt_eq_ld, h2.read_unread, h3.read_unread, h4.read_unread, h6.read_unread,
    View.ld_unit_zero (S := S1024x64) hz, View.ld_unit_zero (S := S2560x64) hz, View.ld_unit_zero (S := S2560x11) hz,
    View.ld_unit_zero (S := S1024x11) hz]

/-- The first key block stores zeros, reads them back, and leaves the first contribution added to them. -/
theorem scratch_first (c : Dev nD) (i : grid0.Coords) (a2 : Memref sig .tc .vmem S1024x64 .f32) (h2 : a2.IsWhole) (a3 : Memref sig .tc .vmem S2560x64 .f32) (h3 : a3.IsWhole) (a4 : Memref sig .tc .vmem S2560x11 .f32) (h4 : a4.IsWhole) (a5 : Memref sig .tc .vmem S1024x10 .f32) (h5 : a5.IsWhole) (a6 : Memref sig .tc .vmem S1024x11 .f32) (h6 : a6.IsWhole) (hc0 : cond0_0 i) (hc1 : ¬cond0_1 i)
    (x0 : Vec F S1024x64 .f32) (x1 : Vec F S2560x64 .f32) (x2 : Vec F S2560x11 .f32) :
    sout0_A_0 c i a2 h2 a3 h3 a4 h4 a5 h5 a6 h6 hc0 hc1 x0 x1 x2 = k0_pay3 x0 x1 x2 (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x11) hz, View.readCov_unit_zero (S := S1024x11) _ hz]
  simp only [View.readAt_eq_ld, h2.read_unread, h3.read_unread, h4.read_unread, h6.read_unread,
    View.ld_unit_zero (S := S1024x64) hz, View.ld_unit_zero (S := S2560x64) hz, View.ld_unit_zero (S := S2560x11) hz,
    View.ld_unit_zero (S := S1024x11) hz]

/-! ## The stored values as "accumulator plus contribution" -/

/-- The contribution of one key block to the running table: the weight tile of the query block `x0` against the
    key block `x1`, multiplied into the key block's table `x2`. -/
def contrib (x0 : Vec F S1024x64 .f32) (x1 : Vec F S2560x64 .f32) (x2 : Vec F S2560x11 .f32) : FVec F S1024x11 .f32 :=
  matmul dot_S1024x2560_S2560x11_S1024x11_1_0_0_1_n_n none
    (truncf .bf16 (exp (addf (addf
      (matmul dot_S1024x64_S2560x64_S1024x2560_1_1_0_0_n_n none
        (mulf x0 (broadcast S1024x64 (Scalar.ofBits .f32 0x3F800000#32)))
        (mulf (shapeCast S2560x64 x1 shapeCasts_S2560x64_S2560x64) (broadcast S2560x64 (Scalar.ofBits .f32 0x3F800000#32)))
        (constant S1024x2560 .f32 0x00000000#32))
      (broadcastTo S1024x2560 (mulf (broadcast S1024x1 (Scalar.ofBits .f32 0xBF000000#32))
        (shapeCast S1024x1 (multiReduction .add [1] S1024
          (mulf (mulf x0 (broadcast S1024x64 (Scalar.ofBits .f32 0x3F800000#32))) (mulf x0 (broadcast S1024x64 (Scalar.ofBits .f32 0x3F800000#32))))
          0x00000000#32 reduces_S1024x64_S1024 (.inl rfl) rfl) shapeCasts_S1024_S1024x1)) broadcasts_S1024x1_S1024x2560))
      (broadcastTo S1024x2560 (mulf (broadcast S1x2560 (Scalar.ofBits .f32 0xBF000000#32))
        (shapeCast S1x2560 (multiReduction .add [1] S2560
          (mulf (mulf (shapeCast S2560x64 x1 shapeCasts_S2560x64_S2560x64) (broadcast S2560x64 (Scalar.ofBits .f32 0x3F800000#32)))
            (mulf (shapeCast S2560x64 x1 shapeCasts_S2560x64_S2560x64) (broadcast S2560x64 (Scalar.ofBits .f32 0x3F800000#32))))
          0x00000000#32 reduces_S2560x64_S2560 (.inl rfl) rfl) shapeCasts_S2560_S1x2560)) broadcasts_S1x2560_S1024x2560))) bitsLt_bf16_f32)
    (truncf .bf16 (shapeCast S2560x11 x2 shapeCasts_S2560x11_S2560x11) bitsLt_bf16_f32)
    (constant S1024x11 .f32 0x00000000#32)

/-- What a key block stores: what the scratch held plus the block's contribution. -/
theorem pay3_eq (x0 : Vec F S1024x64 .f32) (x1 : Vec F S2560x64 .f32) (x2 : Vec F S2560x11 .f32) (acc : Vec F S1024x11 .f32) :
    k0_pay3 x0 x1 x2 acc = addf acc (contrib x0 x1 x2) := by
  unfold k0_pay3 contrib
  exact shapeCast_self _ _

/-- The zeros the first key block stores. -/
theorem pay2_eq : (k0_pay2 (F := F)) = broadcast S1024x11 (Scalar.ofBits .f32 0x00000000#32) := by
  unfold k0_pay2
  exact shapeCast_self _ _

end Cert.KernelIdeal.Pieces

end
-- ==== Proof.LibRowsDot.lean ====
/-
  A matrix product whose right operand is contracted on its LAST axis — an [M, K] operand against an [N, K] operand,
  dimension numbers [1], [1], [0], [0], no batch axis — read at one entry of the result. Over the extended reals the
  matrix unit's product into a zero accumulator and the host's `dot_general` are, at row `p` and column `q`, the
  sum over `k : Fin K` of `lhs (p, k) * rhs (q, k)`: row `p` of the left operand against row `q` of the right one.
  The contraction index, a one-coordinate index of the contracted shape, is re-indexed by its coordinate.
  Generic in `M`, `K`, `N`; a printed record with these dimension numbers equals `DotDims.transposedRhs M K N` by `rfl`.
-/
import Idealize.ShloMosaic.PureOps.Ideal.Laws
import Idealize.ShloMosaic.Lib.ValueIdx

noncomputable section

namespace LibRowsDot

open Idealize.ShloMosaic Idealize.ShloMosaic.ValueIdx

variable {M K N : Nat}

/-- The contraction index whose one coordinate is `k`. -/
abbrev kIdx (k : Fin K) : (DotDims.transposedRhs M K N).contr.Idx :=
  (contrEquiv1 (DotDims.transposedRhs M K N) K rfl rfl).symm k

/-- The left operand is read at row `p`, column `k`. -/
theorem lhsIdx_rows (p : Fin M) (q : Fin N) (k : Fin K) :
    (DotDims.transposedRhs M K N).lhsIdx (ix2 p q) (kIdx k) = ix2 p k := by
  funext a
  apply Fin.ext
  match a with
  | ⟨0, _⟩ => rfl
  | ⟨1, _⟩ =>
    exact ((DotDims.transposedRhs M K N).lhsIdx_val_of_single (cl := (1 : Fin 2)) rfl (ix2 p q) (kIdx k)).trans
      (contrEquiv1_symm_val (DotDims.transposedRhs M K N) K rfl rfl k)

/-- The right operand is read at row `q`, column `k`. -/
theorem rhsIdx_rows (p : Fin M) (q : Fin N) (k : Fin K) :
    (DotDims.transposedRhs M K N).rhsIdx (ix2 p q) (kIdx k) = ix2 q k := by
  funext a
  apply Fin.ext
  match a with
  | ⟨0, _⟩ => rfl
  | ⟨1, _⟩ =>
    exact ((DotDims.transposedRhs M K N).rhsIdx_val_of_single (cr := (1 : Fin 2)) rfl (ix2 p q) (kIdx k)).trans
      (contrEquiv1_symm_val (DotDims.transposedRhs M K N) K rfl rfl k)

/-- The sum over the contracted shape is the sum over `k : Fin K` of the two rows' entries multiplied. -/
theorem sum_rows (lhs : (⟨2, ![M, K]⟩ : Shape).Idx → EReal) (rhs : (⟨2, ![N, K]⟩ : Shape).Idx → EReal)
    (p : Fin M) (q : Fin N) :
    (∑ k : (DotDims.transposedRhs M K N).contr.Idx,
        lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_rows p q k, rhsIdx_rows p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) :=
  (Ideal.matmul_constant_zero_apply (DotDims.transposedRhs M K N) prec lhs rhs (ix2 p q)).trans (sum_rows lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) :=
  (Ideal.dotGeneral_apply (DotDims.transposedRhs M K N) prec sched lhs rhs (ix2 p q)).trans (sum_rows lhs rhs p q)

end LibRowsDot

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.LibRowReduce.lean ====
/-
  Reductions along the rows of an [n, e] array, read at a row: over the extended reals the vector unit's maximum over
  axis 1 and the host's one-operand reduce with a maximum body are, at row `p`, the fold of `max` from the initial
  value over the columns `k : Fin e` of the entry (p, k); the vector unit's sum over axis 1 is the sum over the
  columns. The reduced index `p` with the column `k` inserted on axis 1 is the index (p, k). Generic in `n` and `e`.
-/
import Idealize.ShloMosaic.PureOps.Ideal.Laws
import Idealize.ShloMosaic.PureOps.Reduce
import Idealize.ShloMosaic.Lib.ValueIdx

noncomputable section

namespace LibRowReduce

open Idealize.ShloMosaic Idealize.ShloMosaic.ValueIdx

variable {n e : ℕ}

/-- Row `p` with column `k` inserted on axis 1 is the index (p, k). -/
theorem lift_row (h : Shape.Reduces ⟨2, ![n, e]⟩ [1] ⟨1, ![n]⟩) (p : Fin n) (k : Fin e) :
    h.lift (ix1 p) k = ix2 p k := by
  funext a
  apply Fin.ext
  match a with
  | ⟨0, _⟩ => rfl
  | ⟨1, _⟩ => rfl

/-- The vector unit's maximum along the rows, at row `p`: the fold of `max` from the accumulator's value over the columns. -/
theorem multiReduction_max_row {φ : FTy} (x : FVec Ideal ⟨2, ![n, e]⟩ φ) (acc : BitVec φ.bits)
    (h : Shape.Reduces ⟨2, ![n, e]⟩ [1] ⟨1, ![n]⟩) (hφ : FKind.Formats φ) (hacc : acc = FKind.maximumf.neutral φ hφ) (p : Fin n) :
    multiReduction .maximumf [1] ⟨1, ![n]⟩ x acc h hφ hacc (ix1 p)
      = (Finset.univ : Finset (Fin e)).fold max (Ideal.ofBits φ acc) fun k => x (ix2 p k) := by
  refine (Ideal.multiReduction_maximumf_single x acc h hφ hacc (ix1 p)).trans ?_
  refine congrArg (Finset.fold max _ · Finset.univ) (funext fun k => ?_)
  exact congrArg x (lift_row h p k)

/-- The vector unit's sum along the rows, at row `p`: the sum over the columns. -/
theorem multiReduction_add_row {φ : FTy} (x : FVec Ideal ⟨2, ![n, e]⟩ φ) (acc : BitVec φ.bits)
    (h : Shape.Reduces ⟨2, ![n, e]⟩ [1] ⟨1, ![n]⟩) (hφ : FKind.Formats φ) (hacc : acc = FKind.add.neutral φ hφ) (p : Fin n) :
    multiReduction .add [1] ⟨1, ![n]⟩ x acc h hφ hacc (ix1 p) = ∑ k : Fin e, x (ix2 p k) := by
  refine (Ideal.multiReduction_add_single x acc h hφ hacc (ix1 p)).trans ?_
  exact Finset.sum_congr rfl fun k _ => congrArg x (lift_row h p k)

/-- The host's reduce with a maximum body along the rows, at row `p`: the fold of `max` from the initial value over the columns. -/
theorem hostReduce_max_row {φ : FTy} {u : Shape} (x : FVec Ideal ⟨2, ![n, e]⟩ φ) (init : u.Idx → EReal)
    (h' : Shape.ReducesTo ⟨2, ![n, e]⟩ [1] ⟨1, ![n]⟩) (h : Shape.Reduces ⟨2, ![n, e]⟩ [1] ⟨1, ![n]⟩) (hu : 0 < u.numel) (p : Fin n) :
    Host.reduce (FloatOps.maximumf (F := Ideal) (φ := φ)) x init h' hu (ix1 p)
      = (Finset.univ : Finset (Fin e)).fold max (init (Shape.Idx.first hu)) fun k => x (ix2 p k) := by
  refine (Host.reduce_eq_fold_single (FloatOps.maximumf (F := Ideal) (φ := φ)) x init h' h hu (ix1 p)).trans ?_
  refine congrArg (Finset.fold max _ · Finset.univ) (funext fun k => ?_)
  exact congrArg x (lift_row h p k)

/-- The host's float sum along the rows, at row `p`: the initial value plus the sum over the columns. -/
theorem hostReduceAdd_row (x : (⟨2, ![n, e]⟩ : Shape).Idx → EReal) (init : EReal)
    (h' : Shape.ReducesTo ⟨2, ![n, e]⟩ [1] ⟨1, ![n]⟩) (h : Shape.Reduces ⟨2, ![n, e]⟩ [1] ⟨1, ![n]⟩) (p : Fin n) :
    Ideal.hostReduceAdd h' x init (ix1 p) = init + ∑ k : Fin e, x (ix2 p k) := by
  refine (Ideal.hostReduceAdd_single h' h x init (ix1 p)).trans ?_
  exact congrArg (init + ·) (Finset.sum_congr rfl fun k _ => congrArg x (lift_row h p k))

end LibRowReduce

end
-- ==== Proof.LibLayout.lean ====
/-
  Shape casts that add or drop a UNIT axis somewhere other than the front, and broadcasts of a unit axis, read at an
  index given by coordinates: the forms a reduction with kept dimensions meets ([a] ↔ [a,1], [a,b] ↔ [a,1,b],
  [a,b] → [a,b,1], [a,b,c] → [a,b,c,1], [a,b] → [a,1,1,b]; [a,1] → [a,b], [a,b,1] → [a,b,c], [a,b,c,1] → [a,b,c,d],
  [a,1,1,d] → [a,b,c,d]). A shape cast keeps the row-major position, and a unit axis contributes nothing to it; a
  broadcast reads coordinate 0 on the operand's unit axes and the result's coordinate elsewhere.
-/
import Idealize.ShloMosaic.Lib.Pipeline.Value
import Idealize.ShloMosaic.Lib.ValueIdx

namespace Cert.LibLayout

open Idealize.ShloMosaic Idealize.ShloMosaic.ValueIdx

variable {α : Type}

/-! ## Shape casts -/

/-- `[a] → [a,1]`: at (p, u) the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- `[a,b] → [a,1,b]`: at (p, u, q) the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- `[a,1,b] → [a,b]`: at (p, q) the operand at (p, 0, q). -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- `[a,b] → [a,b,1]`: at (p, q, u) the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a,b,c] → [a,b,c,1]`: at (p, q, r, u) the operand at (p, q, r). -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- `[a,b] → [a,1,1,b]`: at (p, u, v, q) the operand at (p, q). -/
theorem shapeCast_ab_a11b_apply {a b : ℕ} (x : (⟨2, ![a, b]⟩ : Shape).Idx → α)
    (h : (⟨2, ![a, b]⟩ : Shape).ShapeCasts ⟨4, ![a, 1, 1, b]⟩) (p : Fin a) (u v : Fin 1) (q : Fin b) :
    shapeCast ⟨4, ![a, 1, 1, b]⟩ x h (ix4 p u v q) = x (ix2 p q) :=
  shapeCast_apply x h _ _ (by
    have hu : u.val = 0 := by omega
    have hv : v.val = 0 := by omega
    rw [Shape.rowMajor_val_two, Shape.rowMajor_val_four]
    show p.val * b + q.val = ((p.val * 1 + u.val) * 1 + v.val) * b + q.val
    simp only [hu, hv, Nat.mul_one, Nat.add_zero])

/-! ## Broadcasts of unit axes -/

/-- `[a,1] → [a,b]`: at (p, q) the operand's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `[a,b,1] → [a,b,c]`: at (p, q, r) the operand's entry of (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a,b,c,1] → [a,b,c,d]`: at (p, q, r, s) the operand's entry of (p, q, r). -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- `[a,1,1,d] → [a,b,c,d]`: at (p, q, r, s) the operand's entry of (p, s). -/
theorem broadcastTo_a11d_abcd_apply {a b c d : ℕ} (v : (⟨4, ![a, 1, 1, d]⟩ : Shape).Idx → α)
    (h : (⟨4, ![a, 1, 1, d]⟩ : Shape).Broadcasts ⟨4, ![a, b, c, d]⟩) (p : Fin a) (q : Fin b) (r : Fin c) (s : Fin d) :
    broadcastTo ⟨4, ![a, b, c, d]⟩ v h (ix4 p q r s) = v (ix4 p (0 : Fin 1) (0 : Fin 1) s) := by
  refine broadcastTo_apply v h (ix4 p q r s) (ix4 p (0 : Fin 1) (0 : Fin 1) s) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show s.val = if d = 1 then 0 else s.val
    split
    · have := s.isLt; omega
    · rfl

end Cert.LibLayout
-- ==== Proof.Payload.lean ====
/-
  The kernel body's stored values read at an entry, over the extended reals.

  One key block's contribution to the running [1024, 11] table, at row `p` and column `q`, is the sum over the block's
  2560 keys `k` of (the weight of key `k` for query `p`) · (the table's entry (k, q)); the weight is the exponential of
  `x_p·xa_k − ½‖x_p‖² − ½‖xa_k‖²`, where the product is the matrix unit's contraction of row `p` of the query block with
  row `k` of the key block, each squared norm a lane sum along a row, laid down as a column (for the queries) or as a
  row (for the keys) and copied across the tile.  The rounding of the weight tile and of the table to bf16 before the
  second product is the identity on extended reals.  The final quotient divides entry (p, q) of the table, q < 10, by
  its entry (p, 10).
-/
import proofs.«106273_j3375844295427_2_alg».proof.Proof.Pieces
import proofs.«106273_j3375844295427_2_alg».proof.Proof.Spec
import proofs.«106273_j3375844295427_2_alg».proof.Proof.LibRowsDot
import proofs.«106273_j3375844295427_2_alg».proof.Proof.LibPlainDot
import proofs.«106273_j3375844295427_2_alg».proof.Proof.LibRowReduce
import proofs.«106273_j3375844295427_2_alg».proof.Proof.LibLayout
import Idealize.ShloMosaic.Lib.ValueLayout
import Idealize.ShloMosaic.Lib.ValueIdx

noncomputable section

namespace Cert.KernelIdeal.Payload

open Cert.KernelIdeal Cert.KernelIdeal.Gen Cert.KernelIdeal.Pieces Cert.Smoother
open Idealize.ShloMosaic Idealize.ShloMosaic.ValueIdx

/-- Row `p` of the query block against row `k` of the key block, every entry multiplied by the word 1.0 first. -/
theorem product_apply (x0 : FVec Ideal S1024x64 .f32) (x1 : FVec Ideal S2560x64 .f32) (p : Fin 1024) (k : Fin 2560) :
    matmul dot_S1024x64_S2560x64_S1024x2560_1_1_0_0_n_n none
        (mulf x0 (broadcast S1024x64 (Scalar.ofBits .f32 0x3F800000#32)))
        (mulf x1 (broadcast S2560x64 (Scalar.ofBits .f32 0x3F800000#32)))
        (constant S1024x2560 .f32 0x00000000#32) (ix2 p k)
      = ∑ d : Fin 64, (x0 (ix2 p d) * one) * (x1 (ix2 k d) * one) := by
  refine (LibRowsDot.matmul_zero_apply none _ _ p k).trans ?_
  refine Finset.sum_congr rfl fun d _ => ?_
  rw [mulf_apply, mulf_apply, broadcast_apply, broadcast_apply]
  rfl

/-- −½ times the squared norm of query row `p`, laid down as a column and copied along the tile's rows. -/
theorem query_norm_apply (x0 : FVec Ideal S1024x64 .f32) (p : Fin 1024) (k : Fin 2560) :
    broadcastTo S1024x2560 (mulf (broadcast S1024x1 (Scalar.ofBits .f32 0xBF000000#32))
        (shapeCast S1024x1 (multiReduction .add [1] S1024
          (mulf (mulf x0 (broadcast S1024x64 (Scalar.ofBits .f32 0x3F800000#32))) (mulf x0 (broadcast S1024x64 (Scalar.ofBits .f32 0x3F800000#32))))
          0x00000000#32 reduces_S1024x64_S1024 (.inl rfl) rfl) shapeCasts_S1024_S1024x1)) broadcasts_S1024x1_S1024x2560 (ix2 p k)
      = negHalf * ∑ d : Fin 64, (x0 (ix2 p d) * one) * (x0 (ix2 p d) * one) := by
  refine (Cert.LibLayout.broadcastTo_a1_ab_apply _ broadcasts_S1024x1_S1024x2560 p k).trans ?_
  rw [mulf_apply, broadcast_apply]
  refine congrArg (negHalf * ·) ?_
  refine (Cert.LibLayout.shapeCast_a_a1_apply _ shapeCasts_S1024_S1024x1 p 0).trans ?_
  refine (LibRowReduce.multiReduction_add_row _ 0x00000000#32 reduces_S1024x64_S1024 (.inl rfl) rfl p).trans ?_
  refine Finset.sum_congr rfl fun d _ => ?_
  rw [mulf_apply, mulf_apply, broadcast_apply]
  rfl

/-- −½ times the squared norm of key row `k`, laid down as a row and copied down the tile's columns. -/
theorem key_norm_apply (x1 : FVec Ideal S2560x64 .f32) (p : Fin 1024) (k : Fin 2560) :
    broadcastTo S1024x2560 (mulf (broadcast S1x2560 (Scalar.ofBits .f32 0xBF000000#32))
        (shapeCast S1x2560 (multiReduction .add [1] S2560
          (mulf (mulf x1 (broadcast S2560x64 (Scalar.ofBits .f32 0x3F800000#32)))
            (mulf x1 (broadcast S2560x64 (Scalar.ofBits .f32 0x3F800000#32))))
          0x00000000#32 reduces_S2560x64_S2560 (.inl rfl) rfl) shapeCasts_S2560_S1x2560)) broadcasts_S1x2560_S1024x2560 (ix2 p k)
      = negHalf * ∑ d : Fin 64, (x1 (ix2 k d) * one) * (x1 (ix2 k d) * one) := by
  refine (broadcastTo_1b_ab_apply _ broadcasts_S1x2560_S1024x2560 p k).trans ?_
  rw [mulf_apply, broadcast_apply]
  refine congrArg (negHalf * ·) ?_
  refine (shapeCast_a_1a_apply _ shapeCasts_S2560_S1x2560 0 k).trans ?_
  refine (LibRowReduce.multiReduction_add_row _ 0x00000000#32 reduces_S2560x64_S2560 (.inl rfl) rfl k).trans ?_
  refine Finset.sum_congr rfl fun d _ => ?_
  rw [mulf_apply, mulf_apply, broadcast_apply]
  rfl

/-- One key block's contribution at row `p`, column `q`: the sum over the block's keys of weight times table entry. -/
theorem contrib_apply (x0 : FVec Ideal S1024x64 .f32) (x1 : FVec Ideal S2560x64 .f32) (x2 : FVec Ideal S2560x11 .f32)
    (p : Fin 1024) (q : Fin 11) :
    contrib (F := Ideal) x0 x1 x2 (ix2 p q)
      = ∑ k : Fin 2560, kw (fun d => x0 (ix2 p d)) (fun d => x1 (ix2 k d)) * x2 (ix2 k q) := by
  unfold contrib
  refine (LibPlainDot.matmul_zero_apply none _ _ p q).trans ?_
  refine Finset.sum_congr rfl fun k _ => ?_
  simp only [truncf_apply, shapeCast_self]
  refine congrArg (· * x2 (ix2 k q)) ?_
  show Ideal.exp _ = _
  unfold kw
  refine congrArg Ideal.exp ?_
  rw [addf_apply, addf_apply, product_apply, query_norm_apply, key_norm_apply]

/-- What a key block stores over a scratch holding `acc`, at row `p`, column `q`. -/
theorem step_apply (x0 : FVec Ideal S1024x64 .f32) (x1 : FVec Ideal S2560x64 .f32) (x2 : FVec Ideal S2560x11 .f32)
    (acc : FVec Ideal S1024x11 .f32) (p : Fin 1024) (q : Fin 11) :
    k0_pay3 (F := Ideal) x0 x1 x2 acc (ix2 p q)
      = acc (ix2 p q) + ∑ k : Fin 2560, kw (fun d => x0 (ix2 p d)) (fun d => x1 (ix2 k d)) * x2 (ix2 k q) := by
  rw [pay3_eq, addf_apply, contrib_apply]

/-- The zeros the first key block stores. -/
theorem zeros_apply (p : Fin 1024) (q : Fin 11) : k0_pay2 (F := Ideal) (ix2 p q) = zero := by
  rw [pay2_eq, broadcast_apply]
  rfl

/-- The quotient stored into the output block: entry (p, q) of the table over its entry (p, 10). -/
theorem quotient_apply (v : FVec Ideal S1024x11 .f32) (p : Fin 1024) (q : Fin 10) :
    k0_pay1 (F := Ideal) v (ix2 p q) = Ideal.div (v (ix2 p ⟨q.val, by omega⟩)) (v (ix2 p (10 : Fin 11))) := by
  unfold k0_pay1
  rw [divf_apply]
  refine congrArg₂ Ideal.div ?_ ?_
  · exact slice2_axis1_apply 0 v slices_S1024x11_o0_0_S1024x10 p q ⟨q.val, by omega⟩ (Nat.zero_add _).symm
  · refine (Cert.LibLayout.broadcastTo_a1_ab_apply _ broadcasts_S1024x1_S1024x10 p q).trans ?_
    exact slice2_axis1_apply 10 v slices_S1024x11_o0_10_S1024x1 p (0 : Fin 1) (10 : Fin 11) rfl

end Cert.KernelIdeal.Payload

end
-- ==== Proof.Blocks.lean ====
/-
  Which rows of the whole arrays a grid point's blocks hold.

  The grid has 4 × 4 points; point `t` handles query block `t / 4` and key block `t % 4`.  Row `p` of the query
  block at `t` is row `1024·(t/4) + p` of the query array; row `k` of the key block, and of the table block, at `t` is
  row `2560·(t%4) + k` of the key array and of the table.  The output block of `t` is rows `1024·(t/4) …` of the result,
  written back at the last key block (`t % 4 = 3`) only.  The printed index maps are decided once over the 16 points.
-/
import proofs.«106273_j3375844295427_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The block index of every window at every point. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0 :=
  (by decide +kernel : ∀ t : Fin grid0.N, _)

/-- Row `p` of the query block at point `t`, as a row of the query array. -/
def qrow (t : Fin cfg0.N) (p : Fin 1024) : Fin 4096 :=
  ⟨1024 * (t.val / 4) + p.val, by have := t.isLt; have hN : cfg0.N = 16 := N_0; have := p.isLt; omega⟩

/-- Row `k` of the key block at point `t`, as a row of the key array. -/
def krow (t : Fin cfg0.N) (k : Fin 2560) : Fin 10240 :=
  ⟨2560 * (t.val % 4) + k.val, by have := k.isLt; omega⟩

theorem qrow_val (t : Fin cfg0.N) (p : Fin 1024) : (qrow t p).val = 1024 * (t.val / 4) + p.val := rfl
theorem krow_val (t : Fin cfg0.N) (k : Fin 2560) : (krow t k).val = 2560 * (t.val % 4) + k.val := rfl

/-- The query block at point `t`. -/
theorem query_block (c : Dev nD) (t : Fin cfg0.N) (p : Fin 1024) (d : Fin 64) :
    (iblk m c 0 t : Vec F S1024x64 .f32) (ix2 p d) = V m c main_arg0 (ix2 (qrow t p) d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * p.val = 1024 * (t.val / 4) + p.val; rw [e0]; omega
  | ⟨1, _⟩ => show win0_0.index t (1 : Fin 2) * 64 + 1 * d.val = d.val; rw [e1]; omega

/-- The key block at point `t`. -/
theorem key_block (c : Dev nD) (t : Fin cfg0.N) (k : Fin 2560) (d : Fin 64) :
    (iblk m c 1 t : Vec F S2560x64 .f32) (ix2 k d) = V m c main_v0 (ix2 (krow t k) d) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 2560 + 1 * k.val = 2560 * (t.val % 4) + k.val; rw [e0]; omega
  | ⟨1, _⟩ => show win0_1.index t (1 : Fin 2) * 64 + 1 * d.val = d.val; rw [e1]; omega

/-- The table block at point `t`. -/
theorem table_block (c : Dev nD) (t : Fin cfg0.N) (k : Fin 2560) (q : Fin 11) :
    (iblk m c 2 t : Vec F S2560x11 .f32) (ix2 k q) = V m c main_v15 (ix2 (krow t k) q) := by
  obtain ⟨-, -, -, -, e0, e1, -⟩ := idx_facts t
  unfold iblk
  rw [View.read_apply]
  show V m c main_v15 _ = V m c main_v15 _
  congr 1
  funext a
  apply Fin.ext
  match a with
  | ⟨0, _⟩ => show win0_2.index t (0 : Fin 2) * 2560 + 1 * k.val = 2560 * (t.val % 4) + k.val; rw [e0]; omega
  | ⟨1, _⟩ => show win0_2.index t (1 : Fin 2) * 11 + 1 * q.val = q.val; rw [e1]; omega

/-- An index of the result is in point `t`'s output block iff its row is one of the block's 1024 rows. -/
theorem mem_out_block (t : Fin cfg0.N) (i : S4096x10.Idx) :
    i ∈ ((cfg0.win 3).blk t).view.set ↔ ∀ a : Fin 2, win0_3.index t a * S1024x10.size a ≤ (i a).val ∧ (i a).val < win0_3.index t a * S1024x10.size a + S1024x10.size a := by
  show i ∈ ((View.whole main_v16).slice (win0_3.rect t)).set ↔ _
  rw [View.set_slice_whole, Rect.mem_set_unit]
  exact Iff.rfl

/-- Every index of the result is in the output block of the last key block of its query block. -/
theorem out_cover (i : S4096x10.Idx) :
    ∃ t : Fin cfg0.N, (cfg0.win 3).flush t = true ∧ i ∈ ((cfg0.win 3).blk t).view.set := by
  have hN : cfg0.N = 16 := N_0
  have hi0 : (i 0).val < 4096 := (i 0).isLt
  have hi1 : (i 1).val < 10 := (i 1).isLt
  let t : Fin cfg0.N := ⟨4 * ((i 0).val / 1024) + 3, by omega⟩
  have htv : t.val = 4 * ((i 0).val / 1024) + 3 := rfl
  obtain ⟨-, -, -, -, -, -, e0, e1⟩ := idx_facts t
  refine ⟨t, (flush0_3 t).mpr (by rw [htv]; omega), ?_⟩
  rw [mem_out_block]
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 10 ≤ (i 1).val ∧ (i 1).val < win0_3.index t (1 : Fin 2) * 10 + 10; rw [e1]; omega

/-- Entry `y` of point `t`'s output block is entry (1024·(t/4) + y₀, y₁) of the result. -/
theorem out_block_emb (t : Fin cfg0.N) (p : Fin 1024) (q : Fin 10) :
    (((cfg0.win 3).blk t).view.emb (ix2 p q) : S4096x10.Idx) = ix2 (qrow t p) q := by
  obtain ⟨-, -, -, -, -, -, e0, e1⟩ := idx_facts t
  funext a
  apply Fin.ext
  match a with
  | ⟨0, _⟩ => show win0_3.index t (0 : Fin 2) * 1024 + 1 * p.val = 1024 * (t.val / 4) + p.val; rw [e0]; omega
  | ⟨1, _⟩ => show win0_3.index t (1 : Fin 2) * 10 + 1 * q.val = q.val; rw [e1]; omega

end Cert.KernelIdeal.Blocks

end
-- ==== Proof.Entry.lean ====
/-
  What the region finds in the arrays the host lines before it computed.

  The key array is the labelled rows followed by the unlabelled rows.  The table has one row per key: for a labelled
  key the indicator of its label among the ten classes, for an unlabelled key the ten class weights its scores give
  (the exponentials of its ten scores less their maximum, each divided by the sum of the ten exponentials).  The kernel is handed the table with an
  eleventh column of ones appended, so that the product with the weight tile yields the weights' sum in that column.
  Nothing here opens the table: it is one function of the scores and the labels, the same in both programs.
-/
import proofs.«106273_j3375844295427_2_alg».proof.Proof.Gen.KernelIdeal.Frame
import proofs.«106273_j3375844295427_2_alg».proof.Proof.Spec
import Idealize.ShloMosaic.Lib.Pipeline.Value
import Idealize.ShloMosaic.Lib.StableHlo.Run
import Idealize.ShloMosaic.Lib.ValueIdx

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]

/-- The key array: the labelled rows, then the unlabelled rows. -/
def keys (x1 : (⟨S2048x64, .f32⟩ : BufTy).Contents (Elt F)) (x2 : (⟨S8192x64, .f32⟩ : BufTy).Contents (Elt F)) :
    (⟨S10240x64, .f32⟩ : BufTy).Contents (Elt F) :=
  concatenate S10240x64 0 [⟨S2048x64, x1⟩, ⟨S8192x64, x2⟩] concatenates_S2048x64_S8192x64_S10240x64_d0

/-- The table over the keys: label indicators for the labelled rows, class weights of the scores for the others. -/
def table (x3 : (⟨S8192x10, .f32⟩ : BufTy).Contents (Elt F)) (x4 : (⟨S2048, .i32⟩ : BufTy).Contents (Elt F)) :
    (⟨S10240x10, .f32⟩ : BufTy).Contents (Elt F) :=
  (concatenate S10240x10 0 [⟨S2048x10, (uitofp .f32 (cmpi .eq (broadcastInDim S2048x10 ![0, 1] bcast_S2048x1_S2048x10_0_1 (broadcastInDim S2048x1 ![0] bcast_S2048_S2048x1_0 x4)) (broadcastInDim S2048x10 ![0, 1] bcast_S1x10_S2048x10_0_1 (iotaInDim S1x10 32 1))))⟩, ⟨S8192x10, (Host.divf (Host.exp (subf x3 (broadcastInDim S8192x10 ![0, 1] bcast_S8192x1_S8192x10_0_1 (broadcastInDim S8192x1 ![0] bcast_S8192_S8192x1_0 (maximumf (broadcastInDim S8192 ![] bcast_S_S8192 (constant S_ .f32 0xFF800000#32)) (Host.reduce FloatOps.maximumf x3 (constant S_ .f32 0xFF800000#32) reducesTo_S8192x10_S8192_d1 h_S_)))))) (broadcastInDim S8192x10 ![0, 1] bcast_S8192x1_S8192x10_0_1 (broadcastInDim S8192x1 ![0] bcast_S8192_S8192x1_0 (Host.reduceAdd (Host.exp (subf x3 (broadcastInDim S8192x10 ![0, 1] bcast_S8192x1_S8192x10_0_1 (broadcastInDim S8192x1 ![0] bcast_S8192_S8192x1_0 (maximumf (broadcastInDim S8192 ![] bcast_S_S8192 (constant S_ .f32 0xFF800000#32)) (Host.reduce FloatOps.maximumf x3 (constant S_ .f32 0xFF800000#32) reducesTo_S8192x10_S8192_d1 h_S_)))))) (constant S_ .f32 0x00000000#32) reducesTo_S8192x10_S8192_d1 h_S_))))⟩] concatenates_S2048x10_S8192x10_S10240x10_d0)

/-- The table with a column of ones appended. -/
def tableExt (x3 : (⟨S8192x10, .f32⟩ : BufTy).Contents (Elt F)) (x4 : (⟨S2048, .i32⟩ : BufTy).Contents (Elt F)) :
    (⟨S10240x11, .f32⟩ : BufTy).Contents (Elt F) :=
  concatenate S10240x11 1 [⟨S10240x10, table x3 x4⟩,
    ⟨S10240x1, broadcastInDim S10240x1 ![] bcast_S_S10240x1 (constant S_ .f32 0x3F800000#32)⟩]
    concatenates_S10240x10_S10240x1_S10240x11_d1

variable (m : (ℓ : Loc nD τ sig) → Buf (Elt F) ℓ)

/-- The region finds the key array at the concatenation of the two argument arrays. -/
theorem entry_keys (c : Dev nD) :
    (V m c main_v0 : S10240x64.Idx → Elt F .f32)
      = keys (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results
  rfl

/-- The region finds the extended table at the host lines' function of the scores and the labels. -/
theorem entry_table (c : Dev nD) :
    (V m c main_v15 : S10240x11.Idx → Elt F .f32)
      = tableExt (m ((c : Thread nD τ).loc main_arg3)) (m ((c : Thread nD τ).loc main_arg4)) := by
  dsimp only [V]
  simp only [hostOps0, hostOps0_1, hostOps0_2, List.flatten_cons, List.flatten_nil, List.append_nil, List.cons_append,
    List.nil_append]
  after_results_simp
  unfold tableExt
  refine congrArg₂ (fun a b => concatenate S10240x11 1 [⟨S10240x10, a⟩, ⟨S10240x1, b⟩]
    concatenates_S10240x10_S10240x1_S10240x11_d1) ?_ ?_
  · after_results_simp
    unfold table
    refine congrArg₂ (fun a b => concatenate S10240x10 0 [⟨S2048x10, a⟩, ⟨S8192x10, b⟩]
      concatenates_S2048x10_S8192x10_S10240x10_d0) ?_ ?_
    · after_results_simp
      try simp only [TRef.toBuf, TRef.ofBuf, cast_eq]
      try rfl
    · after_results_simp
      try rfl
  · after_results_simp
    try rfl

/-! ## The extended table read at a column, over the extended reals -/

/-- Its first ten columns are the table's. -/
theorem tableExt_table (x3 : (⟨S8192x10, .f32⟩ : BufTy).Contents (Elt Ideal)) (x4 : (⟨S2048, .i32⟩ : BufTy).Contents (Elt Ideal))
    (k : Fin 10240) (q : Fin 10) :
    tableExt (F := Ideal) x3 x4 (ix2 k (⟨q.val, by omega⟩ : Fin 11)) = table (F := Ideal) x3 x4 (ix2 k q) := by
  unfold tableExt
  exact concatenate_pair_apply_left (s₁ := S10240x10) (s₂ := S10240x1) (1 : Fin 2) _ _ concatenates_S10240x10_S10240x1_S10240x11_d1
    (ix2 k (⟨q.val, by omega⟩ : Fin 11)) rfl (ix2 k q) (fun b => match b with | ⟨0, _⟩ => rfl | ⟨1, _⟩ => rfl)

/-- Its eleventh column is the word 1.0. -/
theorem tableExt_one (x3 : (⟨S8192x10, .f32⟩ : BufTy).Contents (Elt Ideal)) (x4 : (⟨S2048, .i32⟩ : BufTy).Contents (Elt Ideal))
    (k : Fin 10240) :
    tableExt (F := Ideal) x3 x4 (ix2 k (10 : Fin 11)) = Cert.Smoother.one := by
  unfold tableExt
  refine (concatenate_pair_apply_right (s₁ := S10240x10) (s₂ := S10240x1) (1 : Fin 2) _ _ concatenates_S10240x10_S10240x1_S10240x11_d1
    (ix2 k (10 : Fin 11)) rfl rfl (ix2 k (0 : Fin 1))
    (fun b hb => match b with | ⟨0, _⟩ => rfl | ⟨1, _⟩ => absurd rfl hb) rfl).trans ?_
  rfl

end Cert.KernelIdeal.Entry

end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.Running.lean ====
/-
  The kernel's result array, as one function of the arrays the region finds.

  For a query block the grid visits its four key blocks in order.  After the visit of key block `j` the scratch table
  holds, at row `p` and column `q`, the word 0.0 plus the contributions of key blocks 0 … j, one after the other: each
  contribution the sum over the block's 2560 keys of weight × table entry.  After the fourth visit that is the sum over
  all 10240 keys (a sum over 4 · 2560 indices cut into its four blocks), and the visit stores into the output block
  the quotient of column `q` by column 10.  The table's column 10 is the word 1.0 and its first ten columns the table,
  so the stored quotient is the first spelling `G` of the smoother at row `1024·(t/4) + p`.  The output blocks written
  at the four last visits tile the result array.
-/
import proofs.«106273_j3375844295427_2_alg».proof.Proof.Pieces
import proofs.«106273_j3375844295427_2_alg».proof.Proof.Payload
import proofs.«106273_j3375844295427_2_alg».proof.Proof.Blocks
import proofs.«106273_j3375844295427_2_alg».proof.Proof.Entry
import proofs.«106273_j3375844295427_2_alg».proof.Proof.Spec
import proofs.«106273_j3375844295427_2_alg».proof.Proof.LibBlockSum
import proofs.«106273_j3375844295427_2_alg».proof.Proof.Gen.KernelIdeal.Value

noncomputable section

namespace Cert.KernelIdeal.Running

open Cert.KernelIdeal Cert.KernelIdeal.Gen Cert.KernelIdeal.Pieces Cert.KernelIdeal.Payload Cert.KernelIdeal.Blocks
open Cert.KernelIdeal.Entry Cert.Smoother
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Weight of key `kk` for query `r` times the extended table's entry (kk, q), over the arrays the region finds. -/
def term (c : Dev nD) (r : Fin 4096) (kk : Fin 10240) (q : Fin 11) : EReal :=
  kw (fun d => V m c main_arg0 (ix2 r d)) (fun d => V m c main_v0 (ix2 kk d)) * V m c main_v15 (ix2 kk q)

/-- The scratch table after the visit at point `n`. -/
abbrev tableAt (c : Dev nD) (n : ℕ) (h : n < cfg0.N) : FVec Ideal S1024x11 .f32 := (outsAt0 m c n h).2

/-- What a visit stores over a scratch holding `acc`: `acc` plus the sum over the point's key block. -/
theorem visit_apply (c : Dev nD) (t : Fin cfg0.N) (acc : FVec Ideal S1024x11 .f32) (p : Fin 1024) (q : Fin 11) :
    k0_pay3 (F := Ideal) (iblk m c 0 t) (iblk m c 1 t) (iblk m c 2 t) acc (ix2 p q)
      = acc (ix2 p q) + ∑ k : Fin 2560, term m c (qrow t p) (krow t k) q := by
  refine (step_apply (iblk m c 0 t) (iblk m c 1 t) (iblk m c 2 t) acc p q).trans ?_
  refine congrArg (acc (ix2 p q) + ·) (Finset.sum_congr rfl fun k _ => ?_)
  unfold term
  rw [table_block m c t k q]
  refine congrArg (· * _) ?_
  refine congrArg₂ kw (funext fun d => query_block m c t p d) (funext fun d => key_block m c t k d)

/-- After the first key block of a query block: the word 0.0 plus that block's sum. -/
theorem table_first (c : Dev nD) (t : Fin cfg0.N) (h0 : t.val % 4 = 0) (p : Fin 1024) (q : Fin 11) :
    tableAt m c t.val t.isLt (ix2 p q) = zero + ∑ k : Fin 2560, term m c (qrow t p) (krow t k) q := by
  have h1 : ¬t.val % 4 = 3 := by omega
  have e : tableAt m c t.val t.isLt = k0_pay3 (F := Ideal) (iblk m c 0 t) (iblk m c 1 t) (iblk m c 2 t) (k0_pay2 (F := Ideal)) := by
    show (outsAt0 m c t.val t.isLt).2 = _
    rw [outsAt0_A m c t h0 h1]
    dsimp only
    exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
      (iblk m c 0 t) (iblk m c 1 t) (iblk m c 2 t)
  rw [e, visit_apply, zeros_apply]

/-- After a later key block: what the visit before left, plus this block's sum. -/
theorem table_next (c : Dev nD) (t : Fin cfg0.N) (h0 : ¬t.val % 4 = 0) (p : Fin 1024) (q : Fin 11) :
    tableAt m c t.val t.isLt (ix2 p q)
      = tableAt m c (t.val - 1) (Nat.lt_of_le_of_lt (Nat.sub_le _ _) t.isLt) (ix2 p q)
        + ∑ k : Fin 2560, term m c (qrow t p) (krow t k) q := by
  have e : tableAt m c t.val t.isLt = k0_pay3 (F := Ideal) (iblk m c 0 t) (iblk m c 1 t) (iblk m c 2 t)
      (tableAt m c (t.val - 1) (Nat.lt_of_le_of_lt (Nat.sub_le _ _) t.isLt)) := by
    show (outsAt0 m c t.val t.isLt).2 = _
    by_cases h1 : t.val % 4 = 3
    · rw [outsAt0_C m c t h0 h1]
      dsimp only
      exact scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
        (iblk m c 0 t) (iblk m c 1 t) (iblk m c 2 t) (outsAt0 m c (t.val - 1) (Nat.lt_of_le_of_lt (Nat.sub_le _ _) t.isLt)).2
    · rw [outsAt0_B m c t h0 h1]
      dsimp only
      exact scratch_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
        (iblk m c 0 t) (iblk m c 1 t) (iblk m c 2 t) (outsAt0 m c (t.val - 1) (Nat.lt_of_le_of_lt (Nat.sub_le _ _) t.isLt)).2
  rw [e, visit_apply]

/-- The sum over a key block, by the query block's number `i` and the key block's number `j`. -/
theorem block_sum_eq (c : Dev nD) (t : Fin cfg0.N) (r : Fin 4096) (j : Fin 4) (p : Fin 1024) (q : Fin 11)
    (hr : qrow t p = r) (hj : t.val % 4 = j.val) :
    ∑ k : Fin 2560, term m c (qrow t p) (krow t k) q
      = ∑ k : Fin 2560, term m c r (⟨j.val * 2560 + k.val, BlockSum.block_lt j k⟩ : Fin (4 * 2560)) q := by
  refine Finset.sum_congr rfl fun k _ => ?_
  rw [hr]
  refine congrArg (fun kk => term m c r kk q) (Fin.ext ?_)
  show 2560 * (t.val % 4) + k.val = j.val * 2560 + k.val
  rw [hj]; omega

/-- After the last key block of a query block the scratch holds, at (p, q), the sum over ALL the keys. -/
theorem table_last (c : Dev nD) (t : Fin cfg0.N) (h3 : t.val % 4 = 3) (p : Fin 1024) (q : Fin 11) :
    tableAt m c t.val t.isLt (ix2 p q) = ∑ kk : Fin 10240, term m c (qrow t p) kk q := by
  have hN : cfg0.N = 16 := N_0
  have hlt := t.isLt
  -- the three visits before this one
  let t2 : Fin cfg0.N := ⟨t.val - 1, by omega⟩
  let t1 : Fin cfg0.N := ⟨t.val - 2, by omega⟩
  let t0 : Fin cfg0.N := ⟨t.val - 3, by omega⟩
  have v2 : t2.val = t.val - 1 := rfl
  have v1 : t1.val = t.val - 2 := rfl
  have v0 : t0.val = t.val - 3 := rfl
  have q2 : qrow t2 p = qrow t p := Fin.ext (by rw [qrow_val, qrow_val, v2]; omega)
  have q1 : qrow t1 p = qrow t p := Fin.ext (by rw [qrow_val, qrow_val, v1]; omega)
  have q0 : qrow t0 p = qrow t p := Fin.ext (by rw [qrow_val, qrow_val, v0]; omega)
  have e3 := table_next m c t (by omega) p q
  have e2 := table_next m c t2 (by rw [v2]; omega) p q
  have e1 := table_next m c t1 (by rw [v1]; omega) p q
  have e0 := table_first m c t0 (by rw [v0]; omega) p q
  have s3 := block_sum_eq m c t (qrow t p) (3 : Fin 4) p q rfl (by rw [h3]; rfl)
  have s2 := block_sum_eq m c t2 (qrow t p) (2 : Fin 4) p q q2 (by rw [v2]; show (t.val - 1) % 4 = 2; omega)
  have s1 := block_sum_eq m c t1 (qrow t p) (1 : Fin 4) p q q1 (by rw [v1]; show (t.val - 2) % 4 = 1; omega)
  have s0 := block_sum_eq m c t0 (qrow t p) (0 : Fin 4) p q q0 (by rw [v0]; show (t.val - 3) % 4 = 0; omega)
  have c2 : tableAt m c (t.val - 1) (Nat.lt_of_le_of_lt (Nat.sub_le _ _) t.isLt) (ix2 p q) = tableAt m c t2.val t2.isLt (ix2 p q) := rfl
  have c1 : tableAt m c (t2.val - 1) (Nat.lt_of_le_of_lt (Nat.sub_le _ _) t2.isLt) (ix2 p q) = tableAt m c t1.val t1.isLt (ix2 p q) := by
    congr 1
  have c0 : tableAt m c (t1.val - 1) (Nat.lt_of_le_of_lt (Nat.sub_le _ _) t1.isLt) (ix2 p q) = tableAt m c t0.val t0.isLt (ix2 p q) := by
    congr 1
  rw [e3, c2, e2, c1, e1, c0, e0, s3, s2, s1, s0]
  rw [show (∑ kk : Fin 10240, term m c (qrow t p) kk q) = ∑ kk : Fin (4 * 2560), term m c (qrow t p) kk q from rfl,
    ← BlockSum.sum_blocks 4 2560 (fun kk => term m c (qrow t p) kk q), Fin.sum_univ_four, zero_eq, EReal.coe_zero, zero_add]

/-! ## What the last visit writes back, the final array, the run -/

/-- The first spelling of the smoother over the arrays the region finds. -/
abbrev result (c : Dev nD) : S4096x10.Idx → EReal :=
  G (m ((c : Thread nD τ).loc main_arg0)) (keys (m ((c : Thread nD τ).loc main_arg1)) (m ((c : Thread nD τ).loc main_arg2)))
    (table (m ((c : Thread nD τ).loc main_arg3)) (m ((c : Thread nD τ).loc main_arg4)))

/-- The quotient of column `q` by column 10 of the full sums is the smoother's entry. -/
theorem quotient_eq (c : Dev nD) (r : Fin 4096) (q : Fin 10) :
    Ideal.div (∑ kk : Fin 10240, term m c r kk (⟨q.val, by omega⟩ : Fin 11)) (∑ kk : Fin 10240, term m c r kk (10 : Fin 11))
      = result m c (ix2 r q) := by
  unfold result G term
  rw [V_main_arg0 m c, entry_keys m c, entry_table m c]
  refine congrArg₂ Ideal.div (Finset.sum_congr rfl fun kk _ => ?_) (Finset.sum_congr rfl fun kk _ => ?_)
  · rw [tableExt_table]
  · rw [tableExt_one]

/-- WHAT A LAST VISIT WRITES BACK is its block of the result. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have h0 : ¬t.val % 4 = 0 := by omega
  rw [Value.flushed3_C m c t h0 h3]
  rw [out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
    (iblk m c 0 t) (iblk m c 1 t) (iblk m c 2 t) (outsAt0 m c (t.val - 1) (Nat.lt_of_le_of_lt (Nat.sub_le _ _) t.isLt)).2]
  have e : k0_pay3 (F := Ideal) (iblk m c 0 t) (iblk m c 1 t) (iblk m c 2 t)
      (outsAt0 m c (t.val - 1) (Nat.lt_of_le_of_lt (Nat.sub_le _ _) t.isLt)).2 = tableAt m c t.val t.isLt := by
    show _ = (outsAt0 m c t.val t.isLt).2
    rw [outsAt0_C m c t h0 h3]
    dsimp only
    exact (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
      (iblk m c 0 t) (iblk m c 1 t) (iblk m c 2 t) (outsAt0 m c (t.val - 1) (Nat.lt_of_le_of_lt (Nat.sub_le _ _) t.isLt)).2).symm
  rw [e]
  funext y
  obtain ⟨p, q, rfl⟩ : ∃ (p : Fin 1024) (q : Fin 10), y = ix2 p q := ⟨y 0, y 1, eq_ix2 y⟩
  rw [View.read_apply, out_block_emb t p q]
  show k0_pay1 (F := Ideal) (tableAt m c t.val t.isLt) (ix2 p q) = _
  rw [quotient_apply, table_last m c t h3, table_last m c t h3]
  exact quotient_eq m c (qrow t p) q

/-- So the result array ends holding the smoother of the arguments. -/
theorem final (c : Dev nD) : (dats m 0 c).arrAt 3 cfg0.N = result m c :=
  (dats m 0 c).arrAt_eq_of_cover 3 (result m c) (fun t hf => flushed_eq m c t hf) out_cover

/-- The run, read: the result array at the smoother of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Running

end
-- ==== Proof.RefValue.lean ====
/-
  The reference's result read at an entry, over the extended reals.

  The reference forms the whole [4096, 10240] weight matrix: entry (r, k) is the exponential of
  `−½·((‖x_r‖² + ‖xa_k‖²) − 2·x_r·xa_k)` divided by the word 0x40206C99, every entry of `x` and `xa` divided by the word
  1.0 first and every sum started from the word 0.0.  Its result at (r, q) is the matrix's row `r` against column `q` of
  the table, divided by the sum of the row: the second spelling `R` of the smoother, over the key array and the table
  the reference's own host lines build.
-/
import proofs.«106273_j3375844295427_2_alg».proof.Proof.RefReadP
import proofs.«106273_j3375844295427_2_alg».proof.Proof.Spec

noncomputable section

namespace Cert.ReferenceIdeal.RefValue

open Cert.ReferenceIdeal Cert.ReferenceIdeal.Gen Cert.ReferenceIdeal.ReadP Cert.Smoother
open Idealize.ShloMosaic Idealize.ShloMosaic.ValueIdx

/-- Entry (r, k) of the weight matrix. -/
theorem weight_apply (x0 : (⟨S4096x64, .f32⟩ : BufTy).Contents (Elt Ideal)) (x1 : (⟨S2048x64, .f32⟩ : BufTy).Contents (Elt Ideal)) (x2 : (⟨S8192x64, .f32⟩ : BufTy).Contents (Elt Ideal)) (r : Fin 4096) (k : Fin 10240) :
    val_main_v23 (F := Ideal) x0 x1 x2 (ix2 r k)
      = Ideal.div (rw (fun d => x0 (ix2 r d)) (fun d => val_main_v0 (F := Ideal) x1 x2 (ix2 k d))) rootTwoPi := by
  have i6 : ∀ d : Fin 64, idx_main_v6 (idx_main_v7 (idx_main_v13 (ix2 r k))) d = ix2 r d := fun d =>
    funext fun a => Fin.ext (by match a with | ⟨0, _⟩ => rfl | ⟨1, _⟩ => rfl)
  have i9 : ∀ d : Fin 64, idx_main_v9 (idx_main_v10 (idx_main_v14 (ix2 r k))) d = ix2 k d := fun d =>
    funext fun a => Fin.ext (by match a with | ⟨0, _⟩ => rfl | ⟨1, _⟩ => rfl)
  have il : ∀ d : Fin 64, lidx_main_v12 (ix2 r k) d = ix2 r d := fun d =>
    funext fun a => Fin.ext (by match a with | ⟨0, _⟩ => rfl | ⟨1, _⟩ => rfl)
  have ir : ∀ d : Fin 64, idx_main_v11 (ridx_main_v12 (ix2 r k) d) = ix2 k d := fun d =>
    funext fun a => Fin.ext (by match a with | ⟨0, _⟩ => rfl | ⟨1, _⟩ => rfl)
  simp only [val_main_v23_apply, val_main_v22_apply, val_main_cst_5_apply, val_main_v21_apply, val_main_v20_apply,
    val_main_v19_apply, val_main_cst_4_apply, val_main_v18_apply, val_main_v15_apply, val_main_v17_apply,
    val_main_v16_apply, val_main_cst_3_apply, val_main_v13_apply, val_main_v7_apply, val_main_v6_apply,
    val_main_cst_1_apply, val_main_v14_apply, val_main_v10_apply, val_main_v9_apply, val_main_cst_2_apply,
    val_main_v12_apply, val_main_v11_apply, val_main_v5_apply, val_main_v2_apply, val_main_v1_apply, val_main_cst_apply,
    val_main_v8_apply, val_main_v4_apply, val_main_v3_apply, val_main_cst_0_apply, i6, i9, il, ir,
    Ideal.hostDivf_def, Ideal.mulf_def, Ideal.addf_def, Ideal.subf_def, Ideal.hostUnary_exp_def, Ideal.ofBits_def]
  rfl

/-- Entry (r, q) of the reference's result. -/
theorem result_apply (x0 : (⟨S4096x64, .f32⟩ : BufTy).Contents (Elt Ideal)) (x1 : (⟨S2048x64, .f32⟩ : BufTy).Contents (Elt Ideal)) (x2 : (⟨S8192x64, .f32⟩ : BufTy).Contents (Elt Ideal))
    (x3 : (⟨S8192x10, .f32⟩ : BufTy).Contents (Elt Ideal)) (x4 : (⟨S2048, .i32⟩ : BufTy).Contents (Elt Ideal)) (r : Fin 4096) (q : Fin 10) :
    val_main_v41 (F := Ideal) x0 x1 x2 x3 x4 (ix2 r q)
      = R x0 (val_main_v0 (F := Ideal) x1 x2) (val_main_v36 (F := Ideal) x3 x4) (ix2 r q) := by
  have jl : ∀ k : Fin 10240, lidx_main_v37 (ix2 r q) k = ix2 r k := fun k =>
    funext fun a => Fin.ext (by match a with | ⟨0, _⟩ => rfl | ⟨1, _⟩ => rfl)
  have jr : ∀ k : Fin 10240, ridx_main_v37 (ix2 r q) k = ix2 k q := fun k =>
    funext fun a => Fin.ext (by match a with | ⟨0, _⟩ => rfl | ⟨1, _⟩ => rfl)
  have js : ∀ k : Fin 10240, idx_main_v38 (idx_main_v39 (idx_main_v40 (ix2 r q))) k = ix2 r k := fun k =>
    funext fun a => Fin.ext (by match a with | ⟨0, _⟩ => rfl | ⟨1, _⟩ => rfl)
  simp only [val_main_v41_apply, val_main_v37_apply, val_main_v40_apply, val_main_v39_apply, val_main_v38_apply,
    val_main_cst_9_apply, jl, jr, js, weight_apply, Ideal.hostDivf_def, Ideal.ofBits_def]
  rfl

/-- The reference's result is the second spelling of the smoother. -/
theorem result_eq (x0 : (⟨S4096x64, .f32⟩ : BufTy).Contents (Elt Ideal)) (x1 : (⟨S2048x64, .f32⟩ : BufTy).Contents (Elt Ideal)) (x2 : (⟨S8192x64, .f32⟩ : BufTy).Contents (Elt Ideal))
    (x3 : (⟨S8192x10, .f32⟩ : BufTy).Contents (Elt Ideal)) (x4 : (⟨S2048, .i32⟩ : BufTy).Contents (Elt Ideal)) :
    val_main_v41 (F := Ideal) x0 x1 x2 x3 x4
      = R x0 (val_main_v0 (F := Ideal) x1 x2) (val_main_v36 (F := Ideal) x3 x4) := by
  funext i
  obtain ⟨r, q, rfl⟩ : ∃ (r : Fin 4096) (q : Fin 10), i = ix2 r q := ⟨i 0, i 1, eq_ix2 i⟩
  exact result_apply x0 x1 x2 x3 x4 r q

end Cert.ReferenceIdeal.RefValue

end
-- ==== Proof.LibFinite.lean ====
/-
  "Every entry is a real number" is kept by the operations of a dense network, on the extended reals.

  An array over the extended reals is ALL REAL when none of its entries is an infinity.  The property passes
  through: every operation that only re-reads its operand at some index (a broadcast, a reshape, a slice, a
  row gather), the pointwise sum, difference, product and maximum, a matrix product (host or vector unit, zero
  accumulator: a finite sum of products), a host sum along axes, the accumulating scatter (each entry plus a
  finite sum of updates), and a quotient by an all-real array with no zero entry.  Nothing here depends on the
  shapes or on which index an operation reads.
-/
import Idealize.ShloMosaic.PureOps.Ideal.Laws
import Mathlib

noncomputable section

namespace Cert.LibFinite

open Idealize.ShloMosaic

/-- Every entry of the array is a real number. -/
def AllReal {ι : Type*} (x : ι → EReal) : Prop := ∀ i, ∃ r : ℝ, x i = (r : EReal)

/-! ## Scalars -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- The maximum of a real and a positive real is a nonzero real. -/
theorem real_max_pos {a : EReal} (ha : ∃ r : ℝ, a = (r : EReal)) {s : ℝ} (hs : 0 < s) :
    ∃ r : ℝ, max a (s : EReal) = (r : EReal) ∧ r ≠ 0 := by
  obtain ⟨r, rfl⟩ := ha
  exact ⟨max r s, coe_max r s, ne_of_gt (lt_of_lt_of_le hs (le_max_right r s))⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_div {a b : EReal} (ha : ∃ r : ℝ, a = (r : EReal)) (hb : ∃ r : ℝ, b = (r : EReal) ∧ r ≠ 0) :
    ∃ r : ℝ, Ideal.div a b = (r : EReal) := by
  obtain ⟨r, rfl⟩ := ha; obtain ⟨s, rfl, hs⟩ := hb
  exact ⟨r * (1 / s), by rw [Ideal.div_coe hs, ← EReal.coe_mul]⟩

/-! ## Arrays -/

variable {ι κ : Type*}

/-- Reading an all-real array at any indices gives an all-real array: broadcasts, reshapes, slices and gathers. -/
theorem AllReal.read {x : ι → EReal} (hx : AllReal x) (f : κ → ι) : AllReal fun j => x (f j) := fun j => hx (f j)

theorem AllReal.const {c : EReal} (hc : ∃ r : ℝ, c = (r : EReal)) : AllReal fun _ : ι => c := fun _ => hc

theorem AllReal.broadcastInDim {s t : Shape} {dims : Fin s.rank → Fin t.rank} (h : s.BroadcastsInDim t dims)
    {x : s.Idx → EReal} (hx : AllReal x) : AllReal (broadcastInDim t dims h x) := fun _ => hx _

theorem AllReal.gather {s si t : Shape} {w : Nat} (d : GatherDims s si t) {x : s.Idx → EReal} (hx : AllReal x)
    (idx : IVec si w) : AllReal (Host.gather d x idx) := fun _ => hx _

theorem AllReal.addf {s : Shape} {φ : FTy} {x y : FVec Ideal s φ} (hx : AllReal x) (hy : AllReal y) :
    AllReal (addf x y) := fun i => real_add (hx i) (hy i)

theorem AllReal.subf {s : Shape} {φ : FTy} {x y : FVec Ideal s φ} (hx : AllReal x) (hy : AllReal y) :
    AllReal (subf x y) := fun i => real_sub (hx i) (hy i)

theorem AllReal.mulf {s : Shape} {φ : FTy} {x y : FVec Ideal s φ} (hx : AllReal x) (hy : AllReal y) :
    AllReal (mulf x y) := fun i => real_mul (hx i) (hy i)

theorem AllReal.maximumf {s : Shape} {φ : FTy} {x y : FVec Ideal s φ} (hx : AllReal x) (hy : AllReal y) :
    AllReal (maximumf x y) := fun i => real_max (hx i) (hy i)

/-- A quotient by an all-real array without zero entries. -/
theorem AllReal.hostDivf {s : Shape} {φ : FTy} {x y : FVec Ideal s φ} (hx : AllReal x)
    (hy : ∀ i, ∃ r : ℝ, y i = (r : EReal) ∧ r ≠ 0) : AllReal (Host.divf x y) := fun i => real_div (hx i) (hy i)

/-- A host matrix product of all-real arrays, whatever its dimension numbers. -/
theorem AllReal.dotGeneral {sl sr so : Shape} {φ₁ φ₂ : FTy} (d : DotDims sl sr so) (prec : Option ContractPrecision)
    (sched : HostSchedule) {l : FVec Ideal sl φ₁} {r : FVec Ideal sr φ₂} (hl : AllReal l) (hr : AllReal r) :
    AllReal (FloatOps.dotGeneral d prec sched l r) := fun j => by
  rw [Ideal.dotGeneral_apply]
  exact real_sum _ _ fun k _ => real_mul (hl _) (hr _)

/-- The vector unit's matrix product into the zero accumulator. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (FloatOps.matmul d prec l r (constant so .f32 0x00000000#32)) := fun j => by
  rw [Ideal.matmul_constant_zero_apply]
  exact real_sum _ _ fun k _ => real_mul (hl _) (hr _)

/-- The accumulating scatter: each entry plus a finite sum of updates. -/
theorem AllReal.scatterAdd {s si su : Shape} {φ : FTy} {w : Nat} (d : ScatterDims s si su) {x : FVec Ideal s φ}
    (hx : AllReal x) (idx : IVec si w) {upd : FVec Ideal su φ} (hu : AllReal upd) :
    AllReal (Host.scatterAdd (F := Ideal) d x idx upd) := fun i =>
  real_add (hx i) (real_sum _ _ fun j _ => hu j)

end Cert.LibFinite

end
-- ==== Proof.LibFiniteInput.lean ====
/-
  A float array that passes the "all finite" test is all real.

  The finiteness test of an input, as a precondition states it, is the conjunction over all entries of
  |x| < +∞ (the and-reduction of the comparisons into one bit, from the initial bit 1).  On the extended reals
  |x| = max x (-x) is +∞ at both infinities, so the comparison holds exactly at the real entries: if the reduced
  bit is 1, no entry of the array is an infinity.
-/
import Idealize.ShloMosaic.Lib.ReduceAll
import proofs.«106273_j3375844295427_2_alg».proof.Proof.LibFinite

noncomputable section

namespace Cert.LibFiniteInput

open Idealize.ShloMosaic Cert.LibFinite

/-- The f32 word of +∞ denotes the top of the extended reals. -/
theorem ofBits_inf : Ideal.ofBits .f32 0x7F800000#32 = (⊤ : EReal) := by
  simp [Ideal.ofBits, Ideal.ieee]

/-- An extended real whose absolute value compares below +∞ is real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (⊤ : EReal) = 1#1 := by
    have := h
    rwa [Ideal.cmpf_def, Ideal.ofBits_def, ofBits_inf] at this
  induction x using EReal.rec with
  | bot => exact absurd h' (by simp [Ideal.cmp])
  | coe r => exact ⟨r, rfl⟩
  | top => exact absurd h' (by simp [Ideal.cmp])

instance : Subsingleton (⟨0, ![]⟩ : Shape).Idx := ⟨fun a b => funext fun d => d.elim0⟩

/-- If the and-reduction of the tests |x i| < +∞ over the whole array is the bit 1, every entry of x is real. -/
theorem allReal_of_test {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (j : (⟨0, ![]⟩ : Shape).Idx)
    (h : Host.reduce IntOp.andi
        (cmpf .olt (Host.absf x) (broadcastInDim s ![] hb (constant ⟨0, ![]⟩ .f32 0x7F800000#32)))
        (constantI ⟨0, ![]⟩ 1 1#1) hr hu j = 1#1) : AllReal x := fun i =>
  real_of_abs_lt_inf (x i) (Host.reduce_andi_all _ _ hr hu j h i)

end Cert.LibFiniteInput

end
-- ==== Proof.Finite.lean ====
/-
  Under the precondition every entry of the queries and of the two key arrays is a real number.

  The precondition is the conjunction, input by input, of "every entry's absolute value compares below +∞"; on the
  extended reals that comparison holds exactly at the real entries.  The conjunction is a chain of three `and`s of the
  four inputs' bits; only the first three inputs (the queries, the labelled keys, the unlabelled keys) are needed.
-/
import proofs.«106273_j3375844295427_2_alg».proof.Pre_finite_inputs
import proofs.«106273_j3375844295427_2_alg».proof.Proof.LibFinite
import proofs.«106273_j3375844295427_2_alg».proof.Proof.LibFiniteInput
import Idealize.ShloMosaic.Lib.Affine
import Idealize.ShloMosaic.Lib.ValueIdx

noncomputable section

namespace Cert.FiniteInputs

open Cert.Pre_finite_inputs Cert.LibFinite Idealize.ShloMosaic

variable [Cert.Pre_finite_inputs.Facts]
open Cert.Pre_finite_inputs.Facts

/-- The precondition's bit is 1 only if the queries and both key arrays are all real. -/
theorem reals_of_pre (a0 : FVec Ideal S4096x64 .f32) (a1 : FVec Ideal S2048x64 .f32) (a2 : FVec Ideal S8192x64 .f32)
    (a3 : FVec Ideal S8192x10 .f32) (a4 : IVec S2048 32)
    (h : fn (F := Ideal) a0 a1 a2 a3 a4 = fun _ => 1#1) : AllReal a0 ∧ AllReal a1 ∧ AllReal a2 := by
  have h0 := congrFun h ValueIdx.ix0
  dsimp only [fn, fn_part1] at h0
  obtain ⟨h123, -⟩ := IntOp.andi_eq_one.1 h0
  obtain ⟨h12, h3⟩ := IntOp.andi_eq_one.1 h123
  obtain ⟨h1, h2⟩ := IntOp.andi_eq_one.1 h12
  exact ⟨Cert.LibFiniteInput.allReal_of_test a0 bcast_S_S4096x64 reducesTo_S4096x64_S_d0_1 h_S_ ValueIdx.ix0 h1,
    Cert.LibFiniteInput.allReal_of_test a1 bcast_S_S2048x64 reducesTo_S2048x64_S_d0_1 h_S_ ValueIdx.ix0 h2,
    Cert.LibFiniteInput.allReal_of_test a2 bcast_S_S8192x64 reducesTo_S8192x64_S_d0_1 h_S_ ValueIdx.ix0 h3⟩

end Cert.FiniteInputs

end
-- ==== Proof.Bridge.lean ====
/-
  The two programs' host lines build the same key array and the same table, and the key array is all real when the
  two arrays it joins are.

  Both programs join the labelled and the unlabelled keys along the rows, and both build the table over the keys with
  the same operations on the same words, so each pair of terms is one term.  A row of the joined key array is a row of
  the labelled keys (rows below 2048) or of the unlabelled keys (row less 2048).
-/
import proofs.«106273_j3375844295427_2_alg».proof.Proof.Entry
import proofs.«106273_j3375844295427_2_alg».proof.Proof.RefReadP
import proofs.«106273_j3375844295427_2_alg».proof.Proof.LibFinite

noncomputable section

namespace Cert.Bridge

open Cert.LibFinite Idealize.ShloMosaic Idealize.ShloMosaic.ValueIdx

/-- The kernel's key array is the reference's. -/
theorem keys_eq (x1 : (⟨Cert.KernelIdeal.S2048x64, .f32⟩ : BufTy).Contents (Elt Ideal))
    (x2 : (⟨Cert.KernelIdeal.S8192x64, .f32⟩ : BufTy).Contents (Elt Ideal)) :
    Cert.ReferenceIdeal.ReadP.val_main_v0 (F := Ideal) x1 x2 = Cert.KernelIdeal.Entry.keys (F := Ideal) x1 x2 := rfl

/-- The kernel's table is the reference's. -/
theorem table_eq (x3 : (⟨Cert.KernelIdeal.S8192x10, .f32⟩ : BufTy).Contents (Elt Ideal))
    (x4 : (⟨Cert.KernelIdeal.S2048, .i32⟩ : BufTy).Contents (Elt Ideal)) :
    Cert.ReferenceIdeal.ReadP.val_main_v36 (F := Ideal) x3 x4 = Cert.KernelIdeal.Entry.table (F := Ideal) x3 x4 := rfl

/-- The joined key array is all real when both parts are. -/
theorem keys_real (x1 : (⟨Cert.KernelIdeal.S2048x64, .f32⟩ : BufTy).Contents (Elt Ideal))
    (x2 : (⟨Cert.KernelIdeal.S8192x64, .f32⟩ : BufTy).Contents (Elt Ideal))
    (h1 : ∀ i, ∃ r : ℝ, x1 i = (r : EReal)) (h2 : ∀ i, ∃ r : ℝ, x2 i = (r : EReal)) :
    ∀ j, ∃ r : ℝ, Cert.KernelIdeal.Entry.keys (F := Ideal) x1 x2 j = (r : EReal) := by
  intro j
  obtain ⟨k, d, rfl⟩ : ∃ (k : Fin 10240) (d : Fin 64), j = ix2 k d := ⟨j 0, j 1, eq_ix2 j⟩
  unfold Cert.KernelIdeal.Entry.keys
  by_cases hk : k.val < 2048
  · rw [concatenate_pair_apply_left (s₁ := Cert.KernelIdeal.S2048x64) (s₂ := Cert.KernelIdeal.S8192x64) (0 : Fin 2) x1 x2
      Cert.KernelIdeal.Facts₀.concatenates_S2048x64_S8192x64_S10240x64_d0 (ix2 k d) rfl (ix2 (⟨k.val, hk⟩ : Fin 2048) d)
      (fun b => match b with | ⟨0, _⟩ => rfl | ⟨1, _⟩ => rfl)]
    exact h1 _
  · rw [concatenate_pair_apply_right (s₁ := Cert.KernelIdeal.S2048x64) (s₂ := Cert.KernelIdeal.S8192x64) (0 : Fin 2) x1 x2
      Cert.KernelIdeal.Facts₀.concatenates_S2048x64_S8192x64_S10240x64_d0 (ix2 k d) rfl rfl
      (ix2 (⟨k.val - 2048, by have := k.isLt; omega⟩ : Fin 8192) d)
      (fun b hb => match b with | ⟨0, _⟩ => absurd rfl hb | ⟨1, _⟩ => rfl)
      (by show (k.val - 2048) + 2048 = k.val; omega)]
    exact h2 _

end Cert.Bridge

end
-- ==== Proof.lean ====
/-
  A kernel smoother computed by one tiled pass over the keys, against the textbook two-pass formula.

  Inputs: queries `x` (4096 × 64), labelled keys `x_l` (2048 × 64) with integer labels `y_l`, unlabelled keys `x_u`
  (8192 × 64) with class scores `s_u` (8192 × 10).  Both programs join the keys into one array `xa` of 10240 rows and
  build a table `p` of 10 columns over them (label indicators, then the scores' class weights), and both compute, for
  query `r` and column `q`,
        (Σ_k w(r,k) · p(k,q)) / (Σ_k w(r,k)),      w(r,k) = exp(−½‖x_r − xa_k‖²).
  The reference forms the whole weight matrix with the exponent written `−½·((‖x_r‖² + ‖xa_k‖²) − 2 x_r·xa_k)`, divides
  every weight by the constant near √(2π), multiplies the matrix into the table and divides by the matrix's row sums.
  The kernel walks a 4 × 4 grid of (query block, key block) tiles; it writes the exponent `x_r·xa_k − ½‖x_r‖² − ½‖xa_k‖²`,
  leaves the constant out, appends a column of ones to the table so that one matrix product per tile yields numerator
  and denominator together, accumulates the four key blocks' products in a scratch table, and divides after the last.

  Over the extended reals: a change of float format is the identity, so the kernel's rounding of the weight tile and
  of the table before the second product changes nothing; sums may be re-associated and cut into blocks freely.  With
  the queries and keys REAL (the precondition) the two exponents are one real number, each weight a positive real, and
  the positive constant dividing every weight cancels between numerator and denominator: a nonnegative real factor
  distributes over a sum of arbitrary extended reals, and the denominator is a positive real.  The table is never
  opened: it is the same term in both programs.

  The modules: LibScaledAverage (a positive constant dividing every weight leaves a weighted average of extended reals
  as it was), Spec (the two spellings of the smoother and their equality on real queries and keys), Pieces / Payload
  (what the kernel body stores at a grid point, as values and at an entry), Blocks (which rows each tile holds), Entry
  (the key array and the extended table as the kernel's region finds them), Running (the scratch table after each
  tile, the final array, the kernel's run), RefValue (the reference's result at an entry), Finite (the precondition
  makes the queries and keys real), Bridge (both programs' key array and table are the same terms).
-/
import proofs.«106273_j3375844295427_2_alg».proof.Defs
import proofs.«106273_j3375844295427_2_alg».proof.Proof.Gen.Kernel
import proofs.«106273_j3375844295427_2_alg».proof.Proof.Gen.Kernel.Skeleton
import proofs.«106273_j3375844295427_2_alg».proof.Proof.Gen.Kernel.Launch
import proofs.«106273_j3375844295427_2_alg».proof.Proof.Gen.Kernel.Points
import proofs.«106273_j3375844295427_2_alg».proof.Proof.Gen.Kernel.Frame
import proofs.«106273_j3375844295427_2_alg».proof.Proof.Gen.KernelIdeal
import proofs.«106273_j3375844295427_2_alg».proof.Proof.Gen.KernelIdeal.Skeleton
import proofs.«106273_j3375844295427_2_alg».proof.Proof.Gen.KernelIdeal.Launch
import proofs.«106273_j3375844295427_2_alg».proof.Proof.Gen.KernelIdeal.Points
import proofs.«106273_j3375844295427_2_alg».proof.Proof.Gen.KernelIdeal.Frame
import proofs.«106273_j3375844295427_2_alg».proof.Proof.Gen.KernelIdeal.Value
import proofs.«106273_j3375844295427_2_alg».proof.Proof.Gen.ReferenceIdeal
import proofs.«106273_j3375844295427_2_alg».proof.Proof.Gen.Pre_finite_inputs
import proofs.«106273_j3375844295427_2_alg».proof.Proof.RefRunP
import proofs.«106273_j3375844295427_2_alg».proof.Proof.RefReadP
import proofs.«106273_j3375844295427_2_alg».proof.Proof.Spec
import proofs.«106273_j3375844295427_2_alg».proof.Proof.Running
import proofs.«106273_j3375844295427_2_alg».proof.Proof.RefValue
import proofs.«106273_j3375844295427_2_alg».proof.Proof.Finite
import proofs.«106273_j3375844295427_2_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments, under the precondition, both programs end with the smoother of the
    arguments in their result array: the kernel with its first spelling, the reference with its second, equal because
    the queries and keys are real. -/
theorem algebraic : Cert.algebraic_KernelIdeal_ReferenceIdeal := by
  intro m ρ m' ρ' hpre hagree
  refine ⟨fun c => Cert.KernelIdeal.Running.result m c, Cert.KernelIdeal.Running.run m ρ, ?_⟩
  refine (θ_run Cert.ReferenceIdeal.defs _ _).mono (fun _ h c => ⟨(h c).1.trans ?_, (h c).2⟩)
    (Cert.ReferenceIdeal.ValueP.run (F := Ideal) m' ρ')
  obtain ⟨r0, r1, r2⟩ := Cert.FiniteInputs.reals_of_pre _ _ _ _ _ (hpre c)
  rw [Cert.ReferenceIdeal.ReadP.val_main_v41_eq, Cert.ReferenceIdeal.RefValue.result_eq, (hagree c).1, (hagree c).2.1,
    (hagree c).2.2.1, (hagree c).2.2.2.1, (hagree c).2.2.2.2, Cert.Bridge.keys_eq, Cert.Bridge.table_eq]
  exact Cert.Smoother.R_eq_G _ _ _ r0 (Cert.Bridge.keys_real _ _ r1 r2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
